-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S4096x128 : Shape := ⟨2, ![4096, 128]⟩
abbrev S128x4096 : Shape := ⟨2, ![128, 4096]⟩
abbrev S1x4096 : Shape := ⟨2, ![1, 4096]⟩
abbrev S1024x1024 : Shape := ⟨2, ![1024, 1024]⟩
abbrev S128x1024 : Shape := ⟨2, ![128, 1024]⟩
abbrev S1024x128 : Shape := ⟨2, ![1024, 128]⟩
abbrev S1x1024 : Shape := ⟨2, ![1, 1024]⟩

abbrev nBuf : Space → Nat
  | .hbm => 17
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .bf16⟩
  | .hbm, ⟨6, _⟩ => ⟨S4096x4096, .bf16⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x128, .bf16⟩
  | .hbm, ⟨11, _⟩ => ⟨S_, .i32⟩
  | .hbm, ⟨12, _⟩ => ⟨S_, .f32⟩
  | .hbm, ⟨13, _⟩ => ⟨S128x4096, .f32⟩
  | .hbm, ⟨14, _⟩ => ⟨S128x4096, .bf16⟩
  | .hbm, ⟨15, _⟩ => ⟨S1x4096, .f32⟩
  | .hbm, ⟨16, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .bf16⟩
  | .local _ .vmem, ⟨7, _⟩ => ⟨S1024x128, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  pads_S4096x16_S4096x128_000_01120 : S4096x16.Pads (![0, 0] : Fin 2 → Nat) ![0, 112] ![0, 0] S4096x128
  h_S_ : 0 < S_.numel
  pads_S16x4096_S128x4096_01120_000 : S16x4096.Pads (![0, 0] : Fin 2 → Nat) ![112, 0] ![0, 0] S128x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S1024x1024_S128x1024_S1024x128_1_1_0_0_n_n_wf : DotDims.WF S1024x1024 S128x1024 S1024x128 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .bf16 = 32 ∨ (Rect.block (s := S128x4096) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x16 : Shape := ⟨2, ![8192, 16]⟩
abbrev S_ : Shape := ⟨0, ![]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S8192x16, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.Kernel.Cases.lean ====
/-
  The grid and the body's four branches.

  The grid has 8 × 4 × 4 points (i, j, k), visited with k fastest: point number n has k = n mod 4, j = (n / 4) mod 4,
  i = n / 16. Along k the 4096 shared columns are walked in four blocks; along j the four column blocks of the result;
  along i the eight row blocks. The body branches on four conditions of the coordinates: k = 0 (the result block is
  cleared), j = 0 and k = 0 (the low-rank accumulator is cleared), j = 0 (the accumulator takes this block's share of the
  projection) and k = 3 (the correction and the bias are added to the result block). Each is decided here, once, over
  the 128 points, in closed form of the point's number.
-/
import proofs.«126250_j40355512713642_2_alg».proof.Proof.Gen.Kernel.Frame
import proofs.«126250_j40355512713642_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- `k = 0`, as the body computes it. -/
abbrev condK (i : grid0.Coords) : Prop :=
  (Scalar.cmpi .ne (Scalar.extui (Scalar.cmpi .eq (BitVec.ofNat 32 (i 2).val) 0#32)) 0#32) = 1#1
/-- `j = 0` and `k = 0`, as the body computes it. -/
abbrev condJK (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0`, as the body computes it. -/
abbrev condJ (i : grid0.Coords) : Prop :=
  (Scalar.cmpi .ne (Scalar.extui (Scalar.cmpi .eq (BitVec.ofNat 32 (i 1).val) 0#32)) 0#32) = 1#1
/-- `k = 3` (the last block of the shared columns), as the body computes it. -/
abbrev condL (i : grid0.Coords) : Prop :=
  (Scalar.cmpi .ne (Scalar.extui (Scalar.cmpi .eq (BitVec.ofNat 32 (i 2).val) 3#32)) 0#32) = 1#1

theorem hcondK : ∀ t : Fin cfg0.N, condK (grid0.coords t) ↔ t.val % 4 = 0 :=
  (by decide +kernel : ∀ t : Fin grid0.N, condK (grid0.coords t) ↔ t.val % 4 = 0)
theorem hcondJK : ∀ t : Fin cfg0.N, condJK (grid0.coords t) ↔ t.val % 16 = 0 :=
  (by decide +kernel : ∀ t : Fin grid0.N, condJK (grid0.coords t) ↔ t.val % 16 = 0)
theorem hcondJ : ∀ t : Fin cfg0.N, condJ (grid0.coords t) ↔ t.val % 16 < 4 :=
  (by decide +kernel : ∀ t : Fin grid0.N, condJ (grid0.coords t) ↔ t.val % 16 < 4)
theorem hcondL : ∀ t : Fin cfg0.N, condL (grid0.coords t) ↔ t.val % 4 = 3 :=
  (by decide +kernel : ∀ t : Fin grid0.N, condL (grid0.coords t) ↔ t.val % 4 = 3)

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## The buffers the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
/-- The low-rank accumulator: a buffer of the kernel's own, kept from point to point. -/
abbrev scM : Memref sig .tc .vmem S1024x128 .f32 := Memref.whole cc0_scratch0
/-- The result block's and the accumulator's contents are stated through these views. -/
abbrev VO : View sig .tc .vmem S1024x1024 .f32 := (Memref.whole cc0_stg5_0 : Memref sig .tc .vmem S1024x1024 .f32).view
abbrev VS : View sig .tc .vmem S1024x128 .f32 := scM.view

/-- What the region may use besides its windows: the accumulator at some contents, and the generator's register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.Kernel.RunA.lean ====
/-
  The body at the first point of a row block (j = 0, k = 0): the result block and the accumulator are cleared, then each takes its first block's product.
-/
import proofs.«126250_j40355512713642_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer and in the accumulator, as the list of stored pieces (last first), with the
    proof that from the buffers it reads at their contents the body runs, without fault, to a state holding them as they
    were and each written buffer with its pieces written. -/
noncomputable def runA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i)
    (x0 : Vec F S1024x1024 .bf16) (x1 : Vec F S1024x1024 .bf16) (x2 : Vec F S128x1024 .bf16) :
    Σ' (L5 : List (View.Piece (Elt F) S1024x1024 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, ?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH2, %hfH2, H2⟩, ⟨%dO, %fO, -, HO⟩, ⟨%dS, %fS, -, HS⟩, Hk⟩
    obtain rfl := harg3.eq_unread hfH0; obtain rfl := harg4.eq_unread hfH1; obtain rfl := harg5.eq_unread hfH2
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS

end Cert.Kernel.Body

end
-- ==== Proof.Kernel.RunB.lean ====
/-
  The body at the first column block of the result, a middle block of the shared columns (j = 0, k = 1 or 2): the result block and the accumulator each take this block's product.
-/
import proofs.«126250_j40355512713642_2_alg».proof.Proof.Kernel.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer and in the accumulator, as the list of stored pieces (last first), with the
    proof that from the buffers it reads at their contents the body runs, without fault, to a state holding them as they
    were and each written buffer with its pieces written. -/
noncomputable def runB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i)
    (x0 : Vec F S1024x1024 .bf16) (x1 : Vec F S1024x1024 .bf16) (x2 : Vec F S128x1024 .bf16) (xo : Vec F S1024x1024 .f32) (xs : Vec F S1024x128 .f32) :
    Σ' (L5 : List (View.Piece (Elt F) S1024x1024 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, ?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH2, %hfH2, H2⟩, ⟨%fO, %hfO, HO⟩, ⟨%fS, %hfS, HS⟩, Hk⟩
    obtain rfl := harg3.eq_unread hfH0; obtain rfl := harg4.eq_unread hfH1; obtain rfl := harg5.eq_unread hfH2; obtain rfl := harg8.eq_unread hfO; obtain rfl := harg9.eq_unread hfS
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS

end Cert.Kernel.Body

end
-- ==== Proof.Kernel.RunC.lean ====
/-
  The body at the first column block of the result, the last block of the shared columns (j = 0, k = 3): the result block and the accumulator take their last products, then the result block takes three times the correction and the bias.
-/
import proofs.«126250_j40355512713642_2_alg».proof.Proof.Kernel.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer and in the accumulator, as the list of stored pieces (last first), with the
    proof that from the buffers it reads at their contents the body runs, without fault, to a state holding them as they
    were and each written buffer with its pieces written. -/
noncomputable def runC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i)
    (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) :
    Σ' (L5 : List (View.Piece (Elt F) S1024x1024 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, ?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fO, %hfO, HO⟩, ⟨%fS, %hfS, HS⟩, Hk⟩
    obtain rfl := harg3.eq_unread hfH0; obtain rfl := harg4.eq_unread hfH1; obtain rfl := harg5.eq_unread hfH2; obtain rfl := harg6.eq_unread hfH3; obtain rfl := harg7.eq_unread hfH4; obtain rfl := harg8.eq_unread hfO; obtain rfl := harg9.eq_unread hfS
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS

end Cert.Kernel.Body

end
-- ==== Proof.Kernel.RunD.lean ====
/-
  The body at a later column block of the result, the first block of the shared columns (j > 0, k = 0): the result block is cleared and takes its first product; the accumulator is not touched.
-/
import proofs.«126250_j40355512713642_2_alg».proof.Proof.Kernel.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer, as the list of stored pieces (last first), with the
    proof that from the buffers it reads at their contents the body runs, without fault, to a state holding them as they
    were and each written buffer with its pieces written. -/
noncomputable def runD (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : ¬condJK i) (hJ : ¬condJ i) (hL : ¬condL i)
    (x0 : Vec F S1024x1024 .bf16) (x1 : Vec F S1024x1024 .bf16) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, fun E K => ?run⟩
  case run =>
    simp only [cc0__lora_kernel_eq_skeleton]; unfold cc0__lora_kernel_skel
    unfold owns
    iintro ⟨⟨%fH0, %hfH0, H0⟩, ⟨%fH1, %hfH1, H1⟩, ⟨%dO, %fO, -, HO⟩, Hk⟩
    obtain rfl := harg3.eq_unread hfH0; obtain rfl := harg4.eq_unread hfH1
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    iexists _; iexact HO

end Cert.Kernel.Body

end
-- ==== Proof.Kernel.RunE.lean ====
/-
  The body at a later column block of the result, a middle block of the shared columns (j > 0, k = 1 or 2): the result block takes this block's product; the accumulator is not touched.
-/
import proofs.«126250_j40355512713642_2_alg».proof.Proof.Kernel.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer, as the list of stored pieces (last first), with the
    proof that from the buffers it reads at their contents the body runs, without fault, to a state holding them as they
    were and each written buffer with its pieces written. -/
noncomputable def runE (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : ¬condL i)
    (x0 : Vec F S1024x1024 .bf16) (x1 : Vec F S1024x1024 .bf16) (xo : Vec F S1024x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg8 fullShare xo
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fO, %hfO, HO⟩, Hk⟩
    obtain rfl := harg3.eq_unread hfH0; obtain rfl := harg4.eq_unread hfH1; obtain rfl := harg8.eq_unread hfO
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    iexists _; iexact HO

end Cert.Kernel.Body

end
-- ==== Proof.Kernel.RunF.lean ====
/-
  The body at a later column block of the result, the last block of the shared columns (j > 0, k = 3): the result block takes its last product, then three times the correction — read off the accumulator, which is left as it was — and the bias.
-/
import proofs.«126250_j40355512713642_2_alg».proof.Proof.Kernel.RunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer, as the list of stored pieces (last first), with the
    proof that from the buffers it reads at their contents the body runs, without fault, to a state holding them as they
    were and each written buffer with its pieces written. -/
noncomputable def runF (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : condL i)
    (x0 : Vec F S1024x1024 .bf16) (x1 : Vec F S1024x1024 .bf16) (x3 : Vec F S1024x128 .bf16) (x4 : Vec F S1x1024 .f32) (xo : Vec F S1024x1024 .f32) (xs : Vec F S1024x128 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH3, %hfH3, H3⟩, ⟨%fH4, %hfH4, H4⟩, ⟨%fO, %hfO, HO⟩, ⟨%fS, %hfS, HS⟩, Hk⟩
    obtain rfl := harg3.eq_unread hfH0; obtain rfl := harg4.eq_unread hfH1; obtain rfl := harg6.eq_unread hfH3; obtain rfl := harg7.eq_unread hfH4; obtain rfl := harg8.eq_unread hfO; obtain rfl := harg9.eq_unread hfS
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; isplitr; · ipureintro; exact harg9.read_unread _
    iexact HS

end Cert.Kernel.Body

end
-- ==== Proof.Kernel.Carried.lean ====
/-
  What the result block's buffer and the low-rank accumulator hold after each point.

  Per case of the body's branches: the pieces its stores leave cover the buffer, so the buffer's contents are the pieces
  read back. Point by point: the state after point `n` is the pair (result block, accumulator) obtained by running the
  case the point is in on the point's input blocks and — where the case reads a buffer before writing it — on the
  state after point `n - 1`: the result block is read back at every point with k ≠ 0 (its buffer is written back to the
  array only after k = 3), the accumulator at every point but the first of a row block, and at the points with j ≠ 0 it
  is kept as it is. The region's invariant holds the accumulator at this state between points.
-/
import proofs.«126250_j40355512713642_2_alg».proof.Proof.Kernel.RunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Per case: the pieces cover, and what they leave -/

/-- Case A: the stores into the result block's buffer cover it. -/
theorem cover5_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) (y : S1024x1024.Idx) :
    ∃ pc ∈ (runA c i arg3 harg3 arg4 harg4 arg5 harg5 arg6 harg6 arg7 harg7 arg8 harg8 arg9 harg9 hK hJK hJ hL x0 x1 x2).1, y ∈ pc.1.set :=
  View.cover_of_tiledL (runA c i arg3 harg3 arg4 harg4 arg5 harg5 arg6 harg6 arg7 harg7 arg8 harg8 arg9 harg9 hK hJK hJ hL x0 x1 x2).1 S1024x1024.size (by sl_kernel_rfl) y
/-- Case A: what they leave there. -/
def out5_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) : Vec F S1024x1024 .f32 :=
  VO.read (Elt F) (VO.writes (Elt F) VO.junk (runA c i arg3 harg3 arg4 harg4 arg5 harg5 arg6 harg6 arg7 harg7 arg8 harg8 arg9 harg9 hK hJK hJ hL x0 x1 x2).1)
/-- Case A: the stores into the accumulator cover it. -/
theorem scover_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) (y : S1024x128.Idx) :
    ∃ pc ∈ (runA c i arg3 harg3 arg4 harg4 arg5 harg5 arg6 harg6 arg7 harg7 arg8 harg8 arg9 harg9 hK hJK hJ hL x0 x1 x2).2.1, y ∈ pc.1.set :=
  View.cover_of_tiledL (runA c i arg3 harg3 arg4 harg4 arg5 harg5 arg6 harg6 arg7 harg7 arg8 harg8 arg9 harg9 hK hJK hJ hL x0 x1 x2).2.1 S1024x128.size (by sl_kernel_rfl) y
/-- Case A: what they leave there. -/
def sout_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) : Vec F S1024x128 .f32 :=
  VS.read (Elt F) (VS.writes (Elt F) VS.junk (runA c i arg3 harg3 arg4 harg4 arg5 harg5 arg6 harg6 arg7 harg7 arg8 harg8 arg9 harg9 hK hJK hJ hL x0 x1 x2).2.1)

/-- Case B: the stores into the result block's buffer cover it. -/
theorem cover5_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) (y : S1024x1024.Idx) :
    ∃ pc ∈ (runB c i arg3 harg3 arg4 harg4 arg5 harg5 arg6 harg6 arg7 harg7 arg8 harg8 arg9 harg9 hK hJK hJ hL x0 x1 x2 xo xs).1, y ∈ pc.1.set :=
  View.cover_of_tiledL (runB c i arg3 harg3 arg4 harg4 arg5 harg5 arg6 harg6 arg7 harg7 arg8 harg8 arg9 harg9 hK hJK hJ hL x0 x1 x2 xo xs).1 S1024x1024.size (by sl_kernel_rfl) y
/-- Case B: what they leave there. -/
def out5_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) : Vec F S1024x1024 .f32 :=
  VO.read (Elt F) (VO.writes (Elt F) VO.junk (runB c i arg3 harg3 arg4 harg4 arg5 harg5 arg6 harg6 arg7 harg7 arg8 harg8 arg9 harg9 hK hJK hJ hL x0 x1 x2 xo xs).1)
/-- Case B: the stores into the accumulator cover it. -/
theorem scover_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) (y : S1024x128.Idx) :
    ∃ pc ∈ (runB c i arg3 harg3 arg4 harg4 arg5 harg5 arg6 harg6 arg7 harg7 arg8 harg8 arg9 harg9 hK hJK hJ hL x0 x1 x2 xo xs).2.1, y ∈ pc.1.set :=
  View.cover_of_tiledL (runB c i arg3 harg3 arg4 harg4 arg5 harg5 arg6 harg6 arg7 harg7 arg8 harg8 arg9 harg9 hK hJK hJ hL x0 x1 x2 xo xs).2.1 S1024x128.size (by sl_kernel_rfl) y
/-- Case B: what they leave there. -/
def sout_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) : Vec F S1024x128 .f32 :=
  VS.read (Elt F) (VS.writes (Elt F) VS.junk (runB c i arg3 harg3 arg4 harg4 arg5 harg5 arg6 harg6 arg7 harg7 arg8 harg8 arg9 harg9 hK hJK hJ hL x0 x1 x2 xo xs).2.1)

/-- Case C: the stores into the result block's buffer cover it. -/
theorem cover5_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) (y : S1024x1024.Idx) :
    ∃ pc ∈ (runC c i arg3 harg3 arg4 harg4 arg5 harg5 arg6 harg6 arg7 harg7 arg8 harg8 arg9 harg9 hK hJK hJ hL x0 x1 x2 x3 x4 xo xs).1, y ∈ pc.1.set :=
  View.cover_of_tiledL (runC c i arg3 harg3 arg4 harg4 arg5 harg5 arg6 harg6 arg7 harg7 arg8 harg8 arg9 harg9 hK hJK hJ hL x0 x1 x2 x3 x4 xo xs).1 S1024x1024.size (by sl_kernel_rfl) y
/-- Case C: what they leave there. -/
def out5_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) : Vec F S1024x1024 .f32 :=
  VO.read (Elt F) (VO.writes (Elt F) VO.junk (runC c i arg3 harg3 arg4 harg4 arg5 harg5 arg6 harg6 arg7 harg7 arg8 harg8 arg9 harg9 hK hJK hJ hL x0 x1 x2 x3 x4 xo xs).1)
/-- Case C: the stores into the accumulator cover it. -/
theorem scover_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) (y : S1024x128.Idx) :
    ∃ pc ∈ (runC c i arg3 harg3 arg4 harg4 arg5 harg5 arg6 harg6 arg7 harg7 arg8 harg8 arg9 harg9 hK hJK hJ hL x0 x1 x2 x3 x4 xo xs).2.1, y ∈ pc.1.set :=
  View.cover_of_tiledL (runC c i arg3 harg3 arg4 harg4 arg5 harg5 arg6 harg6 arg7 harg7 arg8 harg8 arg9 harg9 hK hJK hJ hL x0 x1 x2 x3 x4 xo xs).2.1 S1024x128.size (by sl_kernel_rfl) y
/-- Case C: what they leave there. -/
def sout_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) : Vec F S1024x128 .f32 :=
  VS.read (Elt F) (VS.writes (Elt F) VS.junk (runC c i arg3 harg3 arg4 harg4 arg5 harg5 arg6 harg6 arg7 harg7 arg8 harg8 arg9 harg9 hK hJK hJ hL x0 x1 x2 x3 x4 xo xs).2.1)

/-- Case D: the stores into the result block's buffer cover it. -/
theorem cover5_D (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : ¬condJK i) (hJ : ¬condJ i) (hL : ¬condL i) (x0 : Vec F S1024x1024 .bf16) (x1 : Vec F S1024x1024 .bf16) (y : S1024x1024.Idx) :
    ∃ pc ∈ (runD c i arg3 harg3 arg4 harg4 arg5 harg5 arg6 harg6 arg7 harg7 arg8 harg8 arg9 harg9 hK hJK hJ hL x0 x1).1, y ∈ pc.1.set :=
  View.cover_of_tiledL (runD c i arg3 harg3 arg4 harg4 arg5 harg5 arg6 harg6 arg7 harg7 arg8 harg8 arg9 harg9 hK hJK hJ hL x0 x1).1 S1024x1024.size (by sl_kernel_rfl) y
/-- Case D: what they leave there. -/
def out5_D (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : ¬condJK i) (hJ : ¬condJ i) (hL : ¬condL i) (x0 : Vec F S1024x1024 .bf16) (x1 : Vec F S1024x1024 .bf16) : Vec F S1024x1024 .f32 :=
  VO.read (Elt F) (VO.writes (Elt F) VO.junk (runD c i arg3 harg3 arg4 harg4 arg5 harg5 arg6 harg6 arg7 harg7 arg8 harg8 arg9 harg9 hK hJK hJ hL x0 x1).1)

/-- Case E: the stores into the result block's buffer cover it. -/
theorem cover5_E (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : ¬condL i) (x0 : Vec F S1024x1024 .bf16) (x1 : Vec F S1024x1024 .bf16) (xo : Vec F S1024x1024 .f32) (y : S1024x1024.Idx) :
    ∃ pc ∈ (runE c i arg3 harg3 arg4 harg4 arg5 harg5 arg6 harg6 arg7 harg7 arg8 harg8 arg9 harg9 hK hJK hJ hL x0 x1 xo).1, y ∈ pc.1.set :=
  View.cover_of_tiledL (runE c i arg3 harg3 arg4 harg4 arg5 harg5 arg6 harg6 arg7 harg7 arg8 harg8 arg9 harg9 hK hJK hJ hL x0 x1 xo).1 S1024x1024.size (by sl_kernel_rfl) y
/-- Case E: what they leave there. -/
def out5_E (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : ¬condL i) (x0 : Vec F S1024x1024 .bf16) (x1 : Vec F S1024x1024 .bf16) (xo : Vec F S1024x1024 .f32) : Vec F S1024x1024 .f32 :=
  VO.read (Elt F) (VO.writes (Elt F) VO.junk (runE c i arg3 harg3 arg4 harg4 arg5 harg5 arg6 harg6 arg7 harg7 arg8 harg8 arg9 harg9 hK hJK hJ hL x0 x1 xo).1)

/-- Case F: the stores into the result block's buffer cover it. -/
theorem cover5_F (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : condL i) (x0 : Vec F S1024x1024 .bf16) (x1 : Vec F S1024x1024 .bf16) (x3 : Vec F S1024x128 .bf16) (x4 : Vec F S1x1024 .f32) (xo : Vec F S1024x1024 .f32) (xs : Vec F S1024x128 .f32) (y : S1024x1024.Idx) :
    ∃ pc ∈ (runF c i arg3 harg3 arg4 harg4 arg5 harg5 arg6 harg6 arg7 harg7 arg8 harg8 arg9 harg9 hK hJK hJ hL x0 x1 x3 x4 xo xs).1, y ∈ pc.1.set :=
  View.cover_of_tiledL (runF c i arg3 harg3 arg4 harg4 arg5 harg5 arg6 harg6 arg7 harg7 arg8 harg8 arg9 harg9 hK hJK hJ hL x0 x1 x3 x4 xo xs).1 S1024x1024.size (by sl_kernel_rfl) y
/-- Case F: what they leave there. -/
def out5_F (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : condL i) (x0 : Vec F S1024x1024 .bf16) (x1 : Vec F S1024x1024 .bf16) (x3 : Vec F S1024x128 .bf16) (x4 : Vec F S1x1024 .f32) (xo : Vec F S1024x1024 .f32) (xs : Vec F S1024x128 .f32) : Vec F S1024x1024 .f32 :=
  VO.read (Elt F) (VO.writes (Elt F) VO.junk (runF c i arg3 harg3 arg4 harg4 arg5 harg5 arg6 harg6 arg7 harg7 arg8 harg8 arg9 harg9 hK hJK hJ hL x0 x1 x3 x4 xo xs).1)

/-! ## One point's step, case by case

  The point's number decides the case: with r = n mod 16, case A is r = 0; B is r = 1, 2; C is r = 3; and for r ≥ 4
  (the later column blocks) D is r mod 4 = 0, E is r mod 4 = 1, 2 and F is r mod 4 = 3. `prev` is the state after the
  point before. -/

def stA (c : Dev nD) (t : Fin cfg0.N) (h : t.val % 16 = 0) : Vec F S1024x1024 .f32 × Vec F S1024x128 .f32 :=
  (out5_A c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t), sout_A c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t))

def stB (c : Dev nD) (t : Fin cfg0.N) (h : t.val % 16 < 4) (h0 : ¬t.val % 16 = 0) (h3 : ¬t.val % 4 = 3) (prev : Vec F S1024x1024 .f32 × Vec F S1024x128 .f32) : Vec F S1024x1024 .f32 × Vec F S1024x128 .f32 :=
  (out5_B c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) prev.1 prev.2, sout_B c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) prev.1 prev.2)

def stC (c : Dev nD) (t : Fin cfg0.N) (h : t.val % 16 < 4) (h3 : t.val % 4 = 3) (prev : Vec F S1024x1024 .f32 × Vec F S1024x128 .f32) : Vec F S1024x1024 .f32 × Vec F S1024x128 .f32 :=
  (out5_C c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) prev.1 prev.2, sout_C c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) prev.1 prev.2)

def stD (c : Dev nD) (t : Fin cfg0.N) (h : ¬t.val % 16 < 4) (h0 : t.val % 4 = 0) (prev : Vec F S1024x1024 .f32 × Vec F S1024x128 .f32) : Vec F S1024x1024 .f32 × Vec F S1024x128 .f32 :=
  (out5_D c (grid0.coords t) (ms0 t) (hs0 t) (ms1 t) (hs1 t) (ms2 t) (hs2 t) (ms3 t) (hs3 t) (ms4 t) (hs4 t) (ms5 t) (hs5 t) scM (Memref.isWhole_whole _) ((hcondK t).mpr h0) (fun hh => by have := (hcondJK t).mp hh; omega) (fun hh => h ((hcondJ t).mp hh)) (fun hh => by have := (hcondL t).mp hh; omega) (iblk m c 0 t) (iblk m c 1 t), prev.2)

def stE (c : Dev nD) (t : Fin cfg0.N) (h : ¬t.val % 16 < 4) (h0 : ¬t.val % 4 = 0) (h3 : ¬t.val % 4 = 3) (prev : Vec F S1024x1024 .f32 × Vec F S1024x128 .f32) : Vec F S1024x1024 .f32 × Vec F S1024x128 .f32 :=
  (out5_E c (grid0.coords t) (ms0 t) (hs0 t) (ms1 t) (hs1 t) (ms2 t) (hs2 t) (ms3 t) (hs3 t) (ms4 t) (hs4 t) (ms5 t) (hs5 t) scM (Memref.isWhole_whole _) (fun hh => h0 ((hcondK t).mp hh)) (fun hh => by have := (hcondJK t).mp hh; omega) (fun hh => h ((hcondJ t).mp hh)) (fun hh => h3 ((hcondL t).mp hh)) (iblk m c 0 t) (iblk m c 1 t) prev.1, prev.2)

def stF (c : Dev nD) (t : Fin cfg0.N) (h : ¬t.val % 16 < 4) (h3 : t.val % 4 = 3) (prev : Vec F S1024x1024 .f32 × Vec F S1024x128 .f32) : Vec F S1024x1024 .f32 × Vec F S1024x128 .f32 :=
  (out5_F c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) (fun hh => h ((hcondJ t).mp hh)) ((hcondL t).mpr h3) (iblk m c 0 t) (iblk m c 1 t) (iblk m c 3 t) (iblk m c 4 t) prev.1 prev.2, prev.2)

/-! ## The state after each point -/

/-- The state (result block's buffer, accumulator) after the body at point `n`. -/
def outsAt (c : Dev nD) : (n : ℕ) → n < cfg0.N → Vec F S1024x1024 .f32 × Vec F S1024x128 .f32
  | 0, hn => stA m c ⟨0, hn⟩ (Nat.zero_mod _)
  | n + 1, hn =>
    if hA : (n + 1) % 16 = 0 then stA m c ⟨n + 1, hn⟩ hA
    else if hJ : (n + 1) % 16 < 4 then
      if h3 : (n + 1) % 4 = 3 then stC m c ⟨n + 1, hn⟩ hJ h3 (outsAt c n (Nat.lt_of_succ_lt hn))
      else stB m c ⟨n + 1, hn⟩ hJ hA h3 (outsAt c n (Nat.lt_of_succ_lt hn))
    else if h0 : (n + 1) % 4 = 0 then stD m c ⟨n + 1, hn⟩ hJ h0 (outsAt c n (Nat.lt_of_succ_lt hn))
    else if h3 : (n + 1) % 4 = 3 then stF m c ⟨n + 1, hn⟩ hJ h3 (outsAt c n (Nat.lt_of_succ_lt hn))
    else stE m c ⟨n + 1, hn⟩ hJ h0 h3 (outsAt c n (Nat.lt_of_succ_lt hn))

/-- The state after the point before `t`. -/
abbrev prevAt (c : Dev nD) (t : Fin cfg0.N) : Vec F S1024x1024 .f32 × Vec F S1024x128 .f32 :=
  outsAt m c (t.val - 1) (Nat.lt_of_le_of_lt (Nat.sub_le _ _) t.isLt)

theorem outsAt_A (c : Dev nD) (t : Fin cfg0.N) (h : t.val % 16 = 0) :
    outsAt m c t.val t.isLt = stA m c t h := by
  obtain ⟨n, hn⟩ := t
  cases n with
  | zero => rfl
  | succ n => exact dif_pos h
theorem outsAt_B (c : Dev nD) (t : Fin cfg0.N) (h : t.val % 16 < 4) (h0 : ¬t.val % 16 = 0) (h3 : ¬t.val % 4 = 3) :
    outsAt m c t.val t.isLt = stB m c t h h0 h3 (prevAt m c t) := by
  obtain ⟨n, hn⟩ := t
  cases n with
  | zero => exact absurd (Nat.zero_mod _) h0
  | succ n => exact (dif_neg h0).trans ((dif_pos h).trans (dif_neg h3))
theorem outsAt_C (c : Dev nD) (t : Fin cfg0.N) (h : t.val % 16 < 4) (h3 : t.val % 4 = 3) :
    outsAt m c t.val t.isLt = stC m c t h h3 (prevAt m c t) := by
  obtain ⟨n, hn⟩ := t
  cases n with
  | zero => exact absurd h3 (show ¬(0 % 4 = 3) by decide)
  | succ n => exact (dif_neg (by dsimp only at h3 ⊢; omega)).trans ((dif_pos h).trans (dif_pos h3))
theorem outsAt_D (c : Dev nD) (t : Fin cfg0.N) (h : ¬t.val % 16 < 4) (h0 : t.val % 4 = 0) :
    outsAt m c t.val t.isLt = stD m c t h h0 (prevAt m c t) := by
  obtain ⟨n, hn⟩ := t
  cases n with
  | zero => exact absurd (show 0 % 16 < 4 by decide) h
  | succ n => exact (dif_neg (by dsimp only at h ⊢; omega)).trans ((dif_neg h).trans (dif_pos h0))
theorem outsAt_E (c : Dev nD) (t : Fin cfg0.N) (h : ¬t.val % 16 < 4) (h0 : ¬t.val % 4 = 0) (h3 : ¬t.val % 4 = 3) :
    outsAt m c t.val t.isLt = stE m c t h h0 h3 (prevAt m c t) := by
  obtain ⟨n, hn⟩ := t
  cases n with
  | zero => exact absurd (show 0 % 16 < 4 by decide) h
  | succ n => exact (dif_neg (by dsimp only at h ⊢; omega)).trans ((dif_neg h).trans ((dif_neg h0).trans (dif_neg h3)))
theorem outsAt_F (c : Dev nD) (t : Fin cfg0.N) (h : ¬t.val % 16 < 4) (h3 : t.val % 4 = 3) :
    outsAt m c t.val t.isLt = stF m c t h h3 (prevAt m c t) := by
  obtain ⟨n, hn⟩ := t
  cases n with
  | zero => exact absurd (show 0 % 16 < 4 by decide) h
  | succ n => exact (dif_neg (by dsimp only at h ⊢; omega)).trans ((dif_neg h).trans ((dif_neg (by dsimp only at h3 ⊢; omega)).trans (dif_pos h3)))

/-! ## The region's invariant -/

/-- Before point `n`: at the first point the accumulator holds anything; afterwards what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the result block's at the
    state's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-- Each input's current buffer holds its block, fetched at this point or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- At a point with k ≠ 0 the result block's current buffer holds what the body left at the point before: the buffer is
    written back to the array only after k = 3, so it was not written back in between. -/
theorem before5_kept (c : Dev nD) (t : Fin cfg0.N) (h0 : ¬t.val % 4 = 0) (d) :
    (dats m 0 c).before 5 t d = (prevAt m c t).1 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

end Cert.Kernel.Body

end
-- ==== Proof.Kernel.Body.lean ====
/-
  The body at every point, and the run of the whole program.

  At a point the pipeline hands the body each window's current buffer: an input's holds its block; the result block's
  holds anything at k = 0 (where the body clears it before reading it) and what the point before left otherwise. The
  invariant hands it the low-rank accumulator at what the point before left. The point's number says which of the six
  cases of the body's branches it is in; that case's run applies, and what it leaves is the state after the point. With
  this the library's launch theorem runs the whole program: it terminates, nothing faults, and the argument arrays —
  which no window stages and no host line before the region writes — end as they began.
-/
import proofs.«126250_j40355512713642_2_alg».proof.Proof.Kernel.Carried

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases hA : t.val % 16 = 0
  · have h := hA
    by_cases hz : t.val = 0
    · rw [outsAt_A m c t h]
      unfold stA; dsimp only
      unfold out5_A sout_A
      rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t)).2.2 Set.univ _)
      isplitl [H0]; · iexact H0
      isplitl [H1]; · iexact H1
      isplitl [H2]; · iexact H2
      isplitl [H5]; · iexists _; iexact H5
      isplitl [HS]; · iexact HS
      iintro ⟨H0, H1, H2, ⟨%e5, H5⟩, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_A c _ _ _ _ _ _ _ _ _ _ _ _ _ _ _ _ _ _ _ _ _ _)
    · rw [outsAt_A m c t h]
      unfold stA; dsimp only
      unfold out5_A sout_A
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t)).2.2 Set.univ _)
      isplitl [H0]; · iexact H0
      isplitl [H1]; · iexact H1
      isplitl [H2]; · iexact H2
      isplitl [H5]; · iexists _; iexact H5
      isplitl [HS]; · iexists _; iexact HS
      iintro ⟨H0, H1, H2, ⟨%e5, H5⟩, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_A c _ _ _ _ _ _ _ _ _ _ _ _ _ _ _ _ _ _ _ _ _ _)
  · have hz : t.val ≠ 0 := fun e => hA (by rw [e])
    by_cases hJ : t.val % 16 < 4
    · have h := hJ
      by_cases h3 : t.val % 4 = 3
      · rw [outsAt_C m c t h h3]
        unfold stC; dsimp only
        unfold out5_C sout_C
        simp only [before5_kept m c t (by omega)]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((runC c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) (prevAt m c t).1 (prevAt m c t).2).2.2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_C c _ _ _ _ _ _ _ _ _ _ _ _ _ _ _ _ _ _ _ _ _ _ _ _ _ _)
      · have h0 := hA
        rw [outsAt_B m c t h h0 h3]
        unfold stB; dsimp only
        unfold out5_B sout_B
        simp only [before5_kept m c t (by omega)]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((runB c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) (prevAt m c t).1 (prevAt m c t).2).2.2 Set.univ _)
        isplitl [H0]; · iexact H0
        isplitl [H1]; · iexact H1
        isplitl [H2]; · iexact H2
        isplitl [H5]; · iexact H5
        isplitl [HS]; · iexact HS
        iintro ⟨H0, H1, H2, ⟨%e5, H5⟩, ⟨%es, HS⟩⟩
        isplitl [HS Hg]
        · isplitl [HS]
          · unfold owns; iexists _; isplitr
            swap; · iexact HS
            ipureintro; exact View.read_writes_of_cover _ _ _ _ _ (scover_B c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_B c _ _ _ _ _ _ _ _ _ _ _ _ _ _ _ _ _ _ _ _ _ _ _ _)
    · have h := hJ
      by_cases h0 : t.val % 4 = 0
      · rw [outsAt_D m c t h h0]
        unfold stD; dsimp only
        unfold out5_D
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((runD c (grid0.coords t) (ms0 t) (hs0 t) (ms1 t) (hs1 t) (ms2 t) (hs2 t) (ms3 t) (hs3 t) (ms4 t) (hs4 t) (ms5 t) (hs5 t) scM (Memref.isWhole_whole _) ((hcondK t).mpr h0) (fun hh => by have := (hcondJK t).mp hh; omega) (fun hh => h ((hcondJ t).mp hh)) (fun hh => by have := (hcondL t).mp hh; omega) (iblk m c 0 t) (iblk m c 1 t)).2 Set.univ _)
        isplitl [H0]; · iexact H0
        isplitl [H1]; · iexact H1
        isplitl [H5]; · iexists _; iexact H5
        iintro ⟨H0, H1, ⟨%e5, H5⟩⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_D c _ _ _ _ _ _ _ _ _ _ _ _ _ _ _ _ _ _ _ _ _)
      · by_cases h3 : t.val % 4 = 3
        · rw [outsAt_F m c t h h3]
          unfold stF; dsimp only
          unfold out5_F
          simp only [before5_kept m c t (by omega)]
          rw [PhiS_castSucc m c t, PhiS_pos m c _ _ hz]
          iintro ⟨⟨HS, Hg⟩, Ho, ⟨%d0, H0⟩, ⟨%d1, H1⟩, ⟨%d2, H2⟩, ⟨%d3, H3⟩, ⟨%d4, H4⟩, ⟨%d5, H5⟩⟩
          iapply ((runF c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) (fun hh => h ((hcondJ t).mp hh)) ((hcondL t).mpr h3) (iblk m c 0 t) (iblk m c 1 t) (iblk m c 3 t) (iblk m c 4 t) (prevAt m c t).1 (prevAt m c t).2).2 Set.univ _)
          isplitl [H0]; · iexact H0
          isplitl [H1]; · iexact H1
          isplitl [H3]; · iexact H3
          isplitl [H4]; · iexact H4
          isplitl [H5]; · iexact H5
          isplitl [HS]; · iexact HS
          iintro ⟨H0, H1, H3, H4, ⟨%e5, H5⟩, HS⟩
          isplitl [HS Hg]
          · isplitl [HS]; · iexact HS
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover5_F c _ _ _ _ _ _ _ _ _ _ _ _ _ _ _ _ _ _ _ _ _ _ _ _ _)
        · rw [outsAt_E m c t h h0 h3]
          unfold stE; dsimp only
          unfold out5_E
          simp only [before5_kept m c t (by omega)]
          rw [PhiS_castSucc m c t, PhiS_pos m c _ _ hz]
          iintro ⟨⟨HS, Hg⟩, Ho, ⟨%d0, H0⟩, ⟨%d1, H1⟩, ⟨%d2, H2⟩, ⟨%d3, H3⟩, ⟨%d4, H4⟩, ⟨%d5, H5⟩⟩
          iapply ((runE c (grid0.coords t) (ms0 t) (hs0 t) (ms1 t) (hs1 t) (ms2 t) (hs2 t) (ms3 t) (hs3 t) (ms4 t) (hs4 t) (ms5 t) (hs5 t) scM (Memref.isWhole_whole _) (fun hh => h0 ((hcondK t).mp hh)) (fun hh => by have := (hcondJK t).mp hh; omega) (fun hh => h ((hcondJ t).mp hh)) (fun hh => h3 ((hcondL t).mp hh)) (iblk m c 0 t) (iblk m c 1 t) (prevAt m c t).1).2 Set.univ _)
          isplitl [H0]; · iexact H0
          isplitl [H1]; · iexact H1
          isplitl [H5]; · iexact H5
          iintro ⟨H0, H1, ⟨%e5, H5⟩⟩
          isplitl [HS Hg]
          · isplitl [HS]; · iexact HS
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover5_E c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulator holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

set_option backward.isDefEq.respectTransparency.types false in
/-- Every weakly fair execution of the program terminates, nothing faulting, every array of the pipeline ending at
    what the library computes from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdeal.Cases.lean ====
/-
  The grid and the body's four branches.

  The grid has 8 × 4 × 4 points (i, j, k), visited with k fastest: point number n has k = n mod 4, j = (n / 4) mod 4,
  i = n / 16. Along k the 4096 shared columns are walked in four blocks; along j the four column blocks of the result;
  along i the eight row blocks. The body branches on four conditions of the coordinates: k = 0 (the result block is
  cleared), j = 0 and k = 0 (the low-rank accumulator is cleared), j = 0 (the accumulator takes this block's share of the
  projection) and k = 3 (the correction and the bias are added to the result block). Each is decided here, once, over
  the 128 points, in closed form of the point's number.
-/
import proofs.«126250_j40355512713642_2_alg».proof.Proof.Gen.KernelIdeal.Frame
import proofs.«126250_j40355512713642_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- `k = 0`, as the body computes it. -/
abbrev condK (i : grid0.Coords) : Prop :=
  (Scalar.cmpi .ne (Scalar.extui (Scalar.cmpi .eq (BitVec.ofNat 32 (i 2).val) 0#32)) 0#32) = 1#1
/-- `j = 0` and `k = 0`, as the body computes it. -/
abbrev condJK (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0`, as the body computes it. -/
abbrev condJ (i : grid0.Coords) : Prop :=
  (Scalar.cmpi .ne (Scalar.extui (Scalar.cmpi .eq (BitVec.ofNat 32 (i 1).val) 0#32)) 0#32) = 1#1
/-- `k = 3` (the last block of the shared columns), as the body computes it. -/
abbrev condL (i : grid0.Coords) : Prop :=
  (Scalar.cmpi .ne (Scalar.extui (Scalar.cmpi .eq (BitVec.ofNat 32 (i 2).val) 3#32)) 0#32) = 1#1

theorem hcondK : ∀ t : Fin cfg0.N, condK (grid0.coords t) ↔ t.val % 4 = 0 :=
  (by decide +kernel : ∀ t : Fin grid0.N, condK (grid0.coords t) ↔ t.val % 4 = 0)
theorem hcondJK : ∀ t : Fin cfg0.N, condJK (grid0.coords t) ↔ t.val % 16 = 0 :=
  (by decide +kernel : ∀ t : Fin grid0.N, condJK (grid0.coords t) ↔ t.val % 16 = 0)
theorem hcondJ : ∀ t : Fin cfg0.N, condJ (grid0.coords t) ↔ t.val % 16 < 4 :=
  (by decide +kernel : ∀ t : Fin grid0.N, condJ (grid0.coords t) ↔ t.val % 16 < 4)
theorem hcondL : ∀ t : Fin cfg0.N, condL (grid0.coords t) ↔ t.val % 4 = 3 :=
  (by decide +kernel : ∀ t : Fin grid0.N, condL (grid0.coords t) ↔ t.val % 4 = 3)

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## The buffers the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
/-- The low-rank accumulator: a buffer of the kernel's own, kept from point to point. -/
abbrev scM : Memref sig .tc .vmem S1024x128 .f32 := Memref.whole cc0_scratch0
/-- The result block's and the accumulator's contents are stated through these views. -/
abbrev VO : View sig .tc .vmem S1024x1024 .f32 := (Memref.whole cc0_stg5_0 : Memref sig .tc .vmem S1024x1024 .f32).view
abbrev VS : View sig .tc .vmem S1024x128 .f32 := scM.view

/-- What the region may use besides its windows: the accumulator at some contents, and the generator's register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KernelIdeal.RunA.lean ====
/-
  The body at the first point of a row block (j = 0, k = 0): the result block and the accumulator are cleared, then each takes its first block's product.
-/
import proofs.«126250_j40355512713642_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer and in the accumulator, as the list of stored pieces (last first), with the
    proof that from the buffers it reads at their contents the body runs, without fault, to a state holding them as they
    were and each written buffer with its pieces written. -/
noncomputable def runA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i)
    (x0 : Vec F S1024x1024 .bf16) (x1 : Vec F S1024x1024 .bf16) (x2 : Vec F S128x1024 .bf16) :
    Σ' (L5 : List (View.Piece (Elt F) S1024x1024 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, ?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH2, %hfH2, H2⟩, ⟨%dO, %fO, -, HO⟩, ⟨%dS, %fS, -, HS⟩, Hk⟩
    obtain rfl := harg3.eq_unread hfH0; obtain rfl := harg4.eq_unread hfH1; obtain rfl := harg5.eq_unread hfH2
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS

end Cert.KernelIdeal.Body

end
-- ==== Proof.KernelIdeal.RunB.lean ====
/-
  The body at the first column block of the result, a middle block of the shared columns (j = 0, k = 1 or 2): the result block and the accumulator each take this block's product.
-/
import proofs.«126250_j40355512713642_2_alg».proof.Proof.KernelIdeal.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer and in the accumulator, as the list of stored pieces (last first), with the
    proof that from the buffers it reads at their contents the body runs, without fault, to a state holding them as they
    were and each written buffer with its pieces written. -/
noncomputable def runB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i)
    (x0 : Vec F S1024x1024 .bf16) (x1 : Vec F S1024x1024 .bf16) (x2 : Vec F S128x1024 .bf16) (xo : Vec F S1024x1024 .f32) (xs : Vec F S1024x128 .f32) :
    Σ' (L5 : List (View.Piece (Elt F) S1024x1024 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, ?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH2, %hfH2, H2⟩, ⟨%fO, %hfO, HO⟩, ⟨%fS, %hfS, HS⟩, Hk⟩
    obtain rfl := harg3.eq_unread hfH0; obtain rfl := harg4.eq_unread hfH1; obtain rfl := harg5.eq_unread hfH2; obtain rfl := harg8.eq_unread hfO; obtain rfl := harg9.eq_unread hfS
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS

end Cert.KernelIdeal.Body

end
-- ==== Proof.KernelIdeal.RunC.lean ====
/-
  The body at the first column block of the result, the last block of the shared columns (j = 0, k = 3): the result block and the accumulator take their last products, then the result block takes three times the correction and the bias.
-/
import proofs.«126250_j40355512713642_2_alg».proof.Proof.KernelIdeal.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer and in the accumulator, as the list of stored pieces (last first), with the
    proof that from the buffers it reads at their contents the body runs, without fault, to a state holding them as they
    were and each written buffer with its pieces written. -/
noncomputable def runC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i)
    (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) :
    Σ' (L5 : List (View.Piece (Elt F) S1024x1024 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, ?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fO, %hfO, HO⟩, ⟨%fS, %hfS, HS⟩, Hk⟩
    obtain rfl := harg3.eq_unread hfH0; obtain rfl := harg4.eq_unread hfH1; obtain rfl := harg5.eq_unread hfH2; obtain rfl := harg6.eq_unread hfH3; obtain rfl := harg7.eq_unread hfH4; obtain rfl := harg8.eq_unread hfO; obtain rfl := harg9.eq_unread hfS
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS

end Cert.KernelIdeal.Body

end
-- ==== Proof.KernelIdeal.RunD.lean ====
/-
  The body at a later column block of the result, the first block of the shared columns (j > 0, k = 0): the result block is cleared and takes its first product; the accumulator is not touched.
-/
import proofs.«126250_j40355512713642_2_alg».proof.Proof.KernelIdeal.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer, as the list of stored pieces (last first), with the
    proof that from the buffers it reads at their contents the body runs, without fault, to a state holding them as they
    were and each written buffer with its pieces written. -/
noncomputable def runD (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : ¬condJK i) (hJ : ¬condJ i) (hL : ¬condL i)
    (x0 : Vec F S1024x1024 .bf16) (x1 : Vec F S1024x1024 .bf16) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, fun E K => ?run⟩
  case run =>
    simp only [cc0__lora_kernel_eq_skeleton]; unfold cc0__lora_kernel_skel
    unfold owns
    iintro ⟨⟨%fH0, %hfH0, H0⟩, ⟨%fH1, %hfH1, H1⟩, ⟨%dO, %fO, -, HO⟩, Hk⟩
    obtain rfl := harg3.eq_unread hfH0; obtain rfl := harg4.eq_unread hfH1
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    iexists _; iexact HO

end Cert.KernelIdeal.Body

end
-- ==== Proof.KernelIdeal.RunE.lean ====
/-
  The body at a later column block of the result, a middle block of the shared columns (j > 0, k = 1 or 2): the result block takes this block's product; the accumulator is not touched.
-/
import proofs.«126250_j40355512713642_2_alg».proof.Proof.KernelIdeal.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer, as the list of stored pieces (last first), with the
    proof that from the buffers it reads at their contents the body runs, without fault, to a state holding them as they
    were and each written buffer with its pieces written. -/
noncomputable def runE (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : ¬condL i)
    (x0 : Vec F S1024x1024 .bf16) (x1 : Vec F S1024x1024 .bf16) (xo : Vec F S1024x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg8 fullShare xo
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5)) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fO, %hfO, HO⟩, Hk⟩
    obtain rfl := harg3.eq_unread hfH0; obtain rfl := harg4.eq_unread hfH1; obtain rfl := harg8.eq_unread hfO
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    iexists _; iexact HO

end Cert.KernelIdeal.Body

end
-- ==== Proof.KernelIdeal.RunF.lean ====
/-
  The body at a later column block of the result, the last block of the shared columns (j > 0, k = 3): the result block takes its last product, then three times the correction — read off the accumulator, which is left as it was — and the bias.
-/
import proofs.«126250_j40355512713642_2_alg».proof.Proof.KernelIdeal.RunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result block's buffer, as the list of stored pieces (last first), with the
    proof that from the buffers it reads at their contents the body runs, without fault, to a state holding them as they
    were and each written buffer with its pieces written. -/
noncomputable def runF (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : condL i)
    (x0 : Vec F S1024x1024 .bf16) (x1 : Vec F S1024x1024 .bf16) (x3 : Vec F S1024x128 .bf16) (x4 : Vec F S1x1024 .f32) (xo : Vec F S1024x1024 .f32) (xs : Vec F S1024x128 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs) -∗ K ⟨⟩))
          ⊢ wp frame (wpE (defs₀ (F := F)) Variants.none c none) E (cc0__lora_kernel i arg3 harg3 arg4 harg4 arg5 harg5 arg6 harg6 arg7 harg7 arg8 harg8 arg9 harg9) K } := by
  refine ⟨?_, fun E K => ?run⟩
  case run =>
    simp only [cc0__lora_kernel_eq_skeleton]; unfold cc0__lora_kernel_skel
    unfold owns
    iintro ⟨⟨%fH0, %hfH0, H0⟩, ⟨%fH1, %hfH1, H1⟩, ⟨%fH3, %hfH3, H3⟩, ⟨%fH4, %hfH4, H4⟩, ⟨%fO, %hfO, HO⟩, ⟨%fS, %hfS, HS⟩, Hk⟩
    obtain rfl := harg3.eq_unread hfH0; obtain rfl := harg4.eq_unread hfH1; obtain rfl := harg6.eq_unread hfH3; obtain rfl := harg7.eq_unread hfH4; obtain rfl := harg8.eq_unread hfO; obtain rfl := harg9.eq_unread hfS
    sl_exec (disch := first | exact hK | exact hJK | exact hJ | exact hL)
    sl_step
    iapply Hk
    isplitl [H0]
    · iexists _; isplitr; · ipureintro; exact harg3.read_unread _
      iexact H0
    isplitl [H1]
    · iexists _; isplitr; · ipureintro; exact harg4.read_unread _
      iexact H1
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; isplitr; · ipureintro; exact harg9.read_unread _
    iexact HS

end Cert.KernelIdeal.Body

end
-- ==== Proof.KernelIdeal.Carried.lean ====
/-
  What the result block's buffer and the low-rank accumulator hold after each point.

  Per case of the body's branches: the pieces its stores leave cover the buffer, so the buffer's contents are the pieces
  read back. Point by point: the state after point `n` is the pair (result block, accumulator) obtained by running the
  case the point is in on the point's input blocks and — where the case reads a buffer before writing it — on the
  state after point `n - 1`: the result block is read back at every point with k ≠ 0 (its buffer is written back to the
  array only after k = 3), the accumulator at every point but the first of a row block, and at the points with j ≠ 0 it
  is kept as it is. The region's invariant holds the accumulator at this state between points.
-/
import proofs.«126250_j40355512713642_2_alg».proof.Proof.KernelIdeal.RunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Per case: the pieces cover, and what they leave -/

/-- Case A: the stores into the result block's buffer cover it. -/
theorem cover5_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) (y : S1024x1024.Idx) :
    ∃ pc ∈ (runA c i arg3 harg3 arg4 harg4 arg5 harg5 arg6 harg6 arg7 harg7 arg8 harg8 arg9 harg9 hK hJK hJ hL x0 x1 x2).1, y ∈ pc.1.set :=
  View.cover_of_tiledL (runA c i arg3 harg3 arg4 harg4 arg5 harg5 arg6 harg6 arg7 harg7 arg8 harg8 arg9 harg9 hK hJK hJ hL x0 x1 x2).1 S1024x1024.size (by sl_kernel_rfl) y
/-- Case A: what they leave there. -/
def out5_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) : Vec F S1024x1024 .f32 :=
  VO.read (Elt F) (VO.writes (Elt F) VO.junk (runA c i arg3 harg3 arg4 harg4 arg5 harg5 arg6 harg6 arg7 harg7 arg8 harg8 arg9 harg9 hK hJK hJ hL x0 x1 x2).1)
/-- Case A: the stores into the accumulator cover it. -/
theorem scover_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) (y : S1024x128.Idx) :
    ∃ pc ∈ (runA c i arg3 harg3 arg4 harg4 arg5 harg5 arg6 harg6 arg7 harg7 arg8 harg8 arg9 harg9 hK hJK hJ hL x0 x1 x2).2.1, y ∈ pc.1.set :=
  View.cover_of_tiledL (runA c i arg3 harg3 arg4 harg4 arg5 harg5 arg6 harg6 arg7 harg7 arg8 harg8 arg9 harg9 hK hJK hJ hL x0 x1 x2).2.1 S1024x128.size (by sl_kernel_rfl) y
/-- Case A: what they leave there. -/
def sout_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i) (x0 : Vec F S1024x1024 .bf16) (x1 : Vec F S1024x1024 .bf16) (x2 : Vec F S128x1024 .bf16) : Vec F S1024x128 .f32 :=
  VS.read (Elt F) (VS.writes (Elt F) VS.junk (runA c i arg3 harg3 arg4 harg4 arg5 harg5 arg6 harg6 arg7 harg7 arg8 harg8 arg9 harg9 hK hJK hJ hL x0 x1 x2).2.1)

/-- Case B: the stores into the result block's buffer cover it. -/
theorem cover5_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) (y : S1024x1024.Idx) :
    ∃ pc ∈ (runB c i arg3 harg3 arg4 harg4 arg5 harg5 arg6 harg6 arg7 harg7 arg8 harg8 arg9 harg9 hK hJK hJ hL x0 x1 x2 xo xs).1, y ∈ pc.1.set :=
  View.cover_of_tiledL (runB c i arg3 harg3 arg4 harg4 arg5 harg5 arg6 harg6 arg7 harg7 arg8 harg8 arg9 harg9 hK hJK hJ hL x0 x1 x2 xo xs).1 S1024x1024.size (by sl_kernel_rfl) y
/-- Case B: what they leave there. -/
def out5_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) : Vec F S1024x1024 .f32 :=
  VO.read (Elt F) (VO.writes (Elt F) VO.junk (runB c i arg3 harg3 arg4 harg4 arg5 harg5 arg6 harg6 arg7 harg7 arg8 harg8 arg9 harg9 hK hJK hJ hL x0 x1 x2 xo xs).1)
/-- Case B: the stores into the accumulator cover it. -/
theorem scover_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) (y : S1024x128.Idx) :
    ∃ pc ∈ (runB c i arg3 harg3 arg4 harg4 arg5 harg5 arg6 harg6 arg7 harg7 arg8 harg8 arg9 harg9 hK hJK hJ hL x0 x1 x2 xo xs).2.1, y ∈ pc.1.set :=
  View.cover_of_tiledL (runB c i arg3 harg3 arg4 harg4 arg5 harg5 arg6 harg6 arg7 harg7 arg8 harg8 arg9 harg9 hK hJK hJ hL x0 x1 x2 xo xs).2.1 S1024x128.size (by sl_kernel_rfl) y
/-- Case B: what they leave there. -/
def sout_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i) (x0 : Vec F S1024x1024 .bf16) (x1 : Vec F S1024x1024 .bf16) (x2 : Vec F S128x1024 .bf16) (xo : Vec F S1024x1024 .f32) (xs : Vec F S1024x128 .f32) : Vec F S1024x128 .f32 :=
  VS.read (Elt F) (VS.writes (Elt F) VS.junk (runB c i arg3 harg3 arg4 harg4 arg5 harg5 arg6 harg6 arg7 harg7 arg8 harg8 arg9 harg9 hK hJK hJ hL x0 x1 x2 xo xs).2.1)

/-- Case C: the stores into the result block's buffer cover it. -/
theorem cover5_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) (y : S1024x1024.Idx) :
    ∃ pc ∈ (runC c i arg3 harg3 arg4 harg4 arg5 harg5 arg6 harg6 arg7 harg7 arg8 harg8 arg9 harg9 hK hJK hJ hL x0 x1 x2 x3 x4 xo xs).1, y ∈ pc.1.set :=
  View.cover_of_tiledL (runC c i arg3 harg3 arg4 harg4 arg5 harg5 arg6 harg6 arg7 harg7 arg8 harg8 arg9 harg9 hK hJK hJ hL x0 x1 x2 x3 x4 xo xs).1 S1024x1024.size (by sl_kernel_rfl) y
/-- Case C: what they leave there. -/
def out5_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) : Vec F S1024x1024 .f32 :=
  VO.read (Elt F) (VO.writes (Elt F) VO.junk (runC c i arg3 harg3 arg4 harg4 arg5 harg5 arg6 harg6 arg7 harg7 arg8 harg8 arg9 harg9 hK hJK hJ hL x0 x1 x2 x3 x4 xo xs).1)
/-- Case C: the stores into the accumulator cover it. -/
theorem scover_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) (y : S1024x128.Idx) :
    ∃ pc ∈ (runC c i arg3 harg3 arg4 harg4 arg5 harg5 arg6 harg6 arg7 harg7 arg8 harg8 arg9 harg9 hK hJK hJ hL x0 x1 x2 x3 x4 xo xs).2.1, y ∈ pc.1.set :=
  View.cover_of_tiledL (runC c i arg3 harg3 arg4 harg4 arg5 harg5 arg6 harg6 arg7 harg7 arg8 harg8 arg9 harg9 hK hJK hJ hL x0 x1 x2 x3 x4 xo xs).2.1 S1024x128.size (by sl_kernel_rfl) y
/-- Case C: what they leave there. -/
def sout_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i) (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) : Vec F S1024x128 .f32 :=
  VS.read (Elt F) (VS.writes (Elt F) VS.junk (runC c i arg3 harg3 arg4 harg4 arg5 harg5 arg6 harg6 arg7 harg7 arg8 harg8 arg9 harg9 hK hJK hJ hL x0 x1 x2 x3 x4 xo xs).2.1)

/-- Case D: the stores into the result block's buffer cover it. -/
theorem cover5_D (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : ¬condJK i) (hJ : ¬condJ i) (hL : ¬condL i) (x0 : Vec F S1024x1024 .bf16) (x1 : Vec F S1024x1024 .bf16) (y : S1024x1024.Idx) :
    ∃ pc ∈ (runD c i arg3 harg3 arg4 harg4 arg5 harg5 arg6 harg6 arg7 harg7 arg8 harg8 arg9 harg9 hK hJK hJ hL x0 x1).1, y ∈ pc.1.set :=
  View.cover_of_tiledL (runD c i arg3 harg3 arg4 harg4 arg5 harg5 arg6 harg6 arg7 harg7 arg8 harg8 arg9 harg9 hK hJK hJ hL x0 x1).1 S1024x1024.size (by sl_kernel_rfl) y
/-- Case D: what they leave there. -/
def out5_D (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : ¬condJK i) (hJ : ¬condJ i) (hL : ¬condL i) (x0 : Vec F S1024x1024 .bf16) (x1 : Vec F S1024x1024 .bf16) : Vec F S1024x1024 .f32 :=
  VO.read (Elt F) (VO.writes (Elt F) VO.junk (runD c i arg3 harg3 arg4 harg4 arg5 harg5 arg6 harg6 arg7 harg7 arg8 harg8 arg9 harg9 hK hJK hJ hL x0 x1).1)

/-- Case E: the stores into the result block's buffer cover it. -/
theorem cover5_E (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : ¬condL i) (x0 : Vec F S1024x1024 .bf16) (x1 : Vec F S1024x1024 .bf16) (xo : Vec F S1024x1024 .f32) (y : S1024x1024.Idx) :
    ∃ pc ∈ (runE c i arg3 harg3 arg4 harg4 arg5 harg5 arg6 harg6 arg7 harg7 arg8 harg8 arg9 harg9 hK hJK hJ hL x0 x1 xo).1, y ∈ pc.1.set :=
  View.cover_of_tiledL (runE c i arg3 harg3 arg4 harg4 arg5 harg5 arg6 harg6 arg7 harg7 arg8 harg8 arg9 harg9 hK hJK hJ hL x0 x1 xo).1 S1024x1024.size (by sl_kernel_rfl) y
/-- Case E: what they leave there. -/
def out5_E (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : ¬condL i) (x0 : Vec F S1024x1024 .bf16) (x1 : Vec F S1024x1024 .bf16) (xo : Vec F S1024x1024 .f32) : Vec F S1024x1024 .f32 :=
  VO.read (Elt F) (VO.writes (Elt F) VO.junk (runE c i arg3 harg3 arg4 harg4 arg5 harg5 arg6 harg6 arg7 harg7 arg8 harg8 arg9 harg9 hK hJK hJ hL x0 x1 xo).1)

/-- Case F: the stores into the result block's buffer cover it. -/
theorem cover5_F (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : condL i) (x0 : Vec F S1024x1024 .bf16) (x1 : Vec F S1024x1024 .bf16) (x3 : Vec F S1024x128 .bf16) (x4 : Vec F S1x1024 .f32) (xo : Vec F S1024x1024 .f32) (xs : Vec F S1024x128 .f32) (y : S1024x1024.Idx) :
    ∃ pc ∈ (runF c i arg3 harg3 arg4 harg4 arg5 harg5 arg6 harg6 arg7 harg7 arg8 harg8 arg9 harg9 hK hJK hJ hL x0 x1 x3 x4 xo xs).1, y ∈ pc.1.set :=
  View.cover_of_tiledL (runF c i arg3 harg3 arg4 harg4 arg5 harg5 arg6 harg6 arg7 harg7 arg8 harg8 arg9 harg9 hK hJK hJ hL x0 x1 x3 x4 xo xs).1 S1024x1024.size (by sl_kernel_rfl) y
/-- Case F: what they leave there. -/
def out5_F (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : condL i) (x0 : Vec F S1024x1024 .bf16) (x1 : Vec F S1024x1024 .bf16) (x3 : Vec F S1024x128 .bf16) (x4 : Vec F S1x1024 .f32) (xo : Vec F S1024x1024 .f32) (xs : Vec F S1024x128 .f32) : Vec F S1024x1024 .f32 :=
  VO.read (Elt F) (VO.writes (Elt F) VO.junk (runF c i arg3 harg3 arg4 harg4 arg5 harg5 arg6 harg6 arg7 harg7 arg8 harg8 arg9 harg9 hK hJK hJ hL x0 x1 x3 x4 xo xs).1)

/-! ## One point's step, case by case

  The point's number decides the case: with r = n mod 16, case A is r = 0; B is r = 1, 2; C is r = 3; and for r ≥ 4
  (the later column blocks) D is r mod 4 = 0, E is r mod 4 = 1, 2 and F is r mod 4 = 3. `prev` is the state after the
  point before. -/

def stA (c : Dev nD) (t : Fin cfg0.N) (h : t.val % 16 = 0) : Vec F S1024x1024 .f32 × Vec F S1024x128 .f32 :=
  (out5_A c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t), sout_A c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t))

def stB (c : Dev nD) (t : Fin cfg0.N) (h : t.val % 16 < 4) (h0 : ¬t.val % 16 = 0) (h3 : ¬t.val % 4 = 3) (prev : Vec F S1024x1024 .f32 × Vec F S1024x128 .f32) : Vec F S1024x1024 .f32 × Vec F S1024x128 .f32 :=
  (out5_B c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) prev.1 prev.2, sout_B c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) prev.1 prev.2)

def stC (c : Dev nD) (t : Fin cfg0.N) (h : t.val % 16 < 4) (h3 : t.val % 4 = 3) (prev : Vec F S1024x1024 .f32 × Vec F S1024x128 .f32) : Vec F S1024x1024 .f32 × Vec F S1024x128 .f32 :=
  (out5_C c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) prev.1 prev.2, sout_C c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) prev.1 prev.2)

def stD (c : Dev nD) (t : Fin cfg0.N) (h : ¬t.val % 16 < 4) (h0 : t.val % 4 = 0) (prev : Vec F S1024x1024 .f32 × Vec F S1024x128 .f32) : Vec F S1024x1024 .f32 × Vec F S1024x128 .f32 :=
  (out5_D c (grid0.coords t) (ms0 t) (hs0 t) (ms1 t) (hs1 t) (ms2 t) (hs2 t) (ms3 t) (hs3 t) (ms4 t) (hs4 t) (ms5 t) (hs5 t) scM (Memref.isWhole_whole _) ((hcondK t).mpr h0) (fun hh => by have := (hcondJK t).mp hh; omega) (fun hh => h ((hcondJ t).mp hh)) (fun hh => by have := (hcondL t).mp hh; omega) (iblk m c 0 t) (iblk m c 1 t), prev.2)

def stE (c : Dev nD) (t : Fin cfg0.N) (h : ¬t.val % 16 < 4) (h0 : ¬t.val % 4 = 0) (h3 : ¬t.val % 4 = 3) (prev : Vec F S1024x1024 .f32 × Vec F S1024x128 .f32) : Vec F S1024x1024 .f32 × Vec F S1024x128 .f32 :=
  (out5_E c (grid0.coords t) (ms0 t) (hs0 t) (ms1 t) (hs1 t) (ms2 t) (hs2 t) (ms3 t) (hs3 t) (ms4 t) (hs4 t) (ms5 t) (hs5 t) scM (Memref.isWhole_whole _) (fun hh => h0 ((hcondK t).mp hh)) (fun hh => by have := (hcondJK t).mp hh; omega) (fun hh => h ((hcondJ t).mp hh)) (fun hh => h3 ((hcondL t).mp hh)) (iblk m c 0 t) (iblk m c 1 t) prev.1, prev.2)

def stF (c : Dev nD) (t : Fin cfg0.N) (h : ¬t.val % 16 < 4) (h3 : t.val % 4 = 3) (prev : Vec F S1024x1024 .f32 × Vec F S1024x128 .f32) : Vec F S1024x1024 .f32 × Vec F S1024x128 .f32 :=
  (out5_F c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) (fun hh => h ((hcondJ t).mp hh)) ((hcondL t).mpr h3) (iblk m c 0 t) (iblk m c 1 t) (iblk m c 3 t) (iblk m c 4 t) prev.1 prev.2, prev.2)

/-! ## The state after each point -/

/-- The state (result block's buffer, accumulator) after the body at point `n`. -/
def outsAt (c : Dev nD) : (n : ℕ) → n < cfg0.N → Vec F S1024x1024 .f32 × Vec F S1024x128 .f32
  | 0, hn => stA m c ⟨0, hn⟩ (Nat.zero_mod _)
  | n + 1, hn =>
    if hA : (n + 1) % 16 = 0 then stA m c ⟨n + 1, hn⟩ hA
    else if hJ : (n + 1) % 16 < 4 then
      if h3 : (n + 1) % 4 = 3 then stC m c ⟨n + 1, hn⟩ hJ h3 (outsAt c n (Nat.lt_of_succ_lt hn))
      else stB m c ⟨n + 1, hn⟩ hJ hA h3 (outsAt c n (Nat.lt_of_succ_lt hn))
    else if h0 : (n + 1) % 4 = 0 then stD m c ⟨n + 1, hn⟩ hJ h0 (outsAt c n (Nat.lt_of_succ_lt hn))
    else if h3 : (n + 1) % 4 = 3 then stF m c ⟨n + 1, hn⟩ hJ h3 (outsAt c n (Nat.lt_of_succ_lt hn))
    else stE m c ⟨n + 1, hn⟩ hJ h0 h3 (outsAt c n (Nat.lt_of_succ_lt hn))

/-- The state after the point before `t`. -/
abbrev prevAt (c : Dev nD) (t : Fin cfg0.N) : Vec F S1024x1024 .f32 × Vec F S1024x128 .f32 :=
  outsAt m c (t.val - 1) (Nat.lt_of_le_of_lt (Nat.sub_le _ _) t.isLt)

theorem outsAt_A (c : Dev nD) (t : Fin cfg0.N) (h : t.val % 16 = 0) :
    outsAt m c t.val t.isLt = stA m c t h := by
  obtain ⟨n, hn⟩ := t
  cases n with
  | zero => rfl
  | succ n => exact dif_pos h
theorem outsAt_B (c : Dev nD) (t : Fin cfg0.N) (h : t.val % 16 < 4) (h0 : ¬t.val % 16 = 0) (h3 : ¬t.val % 4 = 3) :
    outsAt m c t.val t.isLt = stB m c t h h0 h3 (prevAt m c t) := by
  obtain ⟨n, hn⟩ := t
  cases n with
  | zero => exact absurd (Nat.zero_mod _) h0
  | succ n => exact (dif_neg h0).trans ((dif_pos h).trans (dif_neg h3))
theorem outsAt_C (c : Dev nD) (t : Fin cfg0.N) (h : t.val % 16 < 4) (h3 : t.val % 4 = 3) :
    outsAt m c t.val t.isLt = stC m c t h h3 (prevAt m c t) := by
  obtain ⟨n, hn⟩ := t
  cases n with
  | zero => exact absurd h3 (show ¬(0 % 4 = 3) by decide)
  | succ n => exact (dif_neg (by dsimp only at h3 ⊢; omega)).trans ((dif_pos h).trans (dif_pos h3))
theorem outsAt_D (c : Dev nD) (t : Fin cfg0.N) (h : ¬t.val % 16 < 4) (h0 : t.val % 4 = 0) :
    outsAt m c t.val t.isLt = stD m c t h h0 (prevAt m c t) := by
  obtain ⟨n, hn⟩ := t
  cases n with
  | zero => exact absurd (show 0 % 16 < 4 by decide) h
  | succ n => exact (dif_neg (by dsimp only at h ⊢; omega)).trans ((dif_neg h).trans (dif_pos h0))
theorem outsAt_E (c : Dev nD) (t : Fin cfg0.N) (h : ¬t.val % 16 < 4) (h0 : ¬t.val % 4 = 0) (h3 : ¬t.val % 4 = 3) :
    outsAt m c t.val t.isLt = stE m c t h h0 h3 (prevAt m c t) := by
  obtain ⟨n, hn⟩ := t
  cases n with
  | zero => exact absurd (show 0 % 16 < 4 by decide) h
  | succ n => exact (dif_neg (by dsimp only at h ⊢; omega)).trans ((dif_neg h).trans ((dif_neg h0).trans (dif_neg h3)))
theorem outsAt_F (c : Dev nD) (t : Fin cfg0.N) (h : ¬t.val % 16 < 4) (h3 : t.val % 4 = 3) :
    outsAt m c t.val t.isLt = stF m c t h h3 (prevAt m c t) := by
  obtain ⟨n, hn⟩ := t
  cases n with
  | zero => exact absurd (show 0 % 16 < 4 by decide) h
  | succ n => exact (dif_neg (by dsimp only at h ⊢; omega)).trans ((dif_neg h).trans ((dif_neg (by dsimp only at h3 ⊢; omega)).trans (dif_pos h3)))

/-! ## The region's invariant -/

/-- Before point `n`: at the first point the accumulator holds anything; afterwards what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the result block's at the
    state's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-- Each input's current buffer holds its block, fetched at this point or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- At a point with k ≠ 0 the result block's current buffer holds what the body left at the point before: the buffer is
    written back to the array only after k = 3, so it was not written back in between. -/
theorem before5_kept (c : Dev nD) (t : Fin cfg0.N) (h0 : ¬t.val % 4 = 0) (d) :
    (dats m 0 c).before 5 t d = (prevAt m c t).1 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

end Cert.KernelIdeal.Body

end
-- ==== Proof.KernelIdeal.Body.lean ====
/-
  The body at every point, and the run of the whole program.

  At a point the pipeline hands the body each window's current buffer: an input's holds its block; the result block's
  holds anything at k = 0 (where the body clears it before reading it) and what the point before left otherwise. The
  invariant hands it the low-rank accumulator at what the point before left. The point's number says which of the six
  cases of the body's branches it is in; that case's run applies, and what it leaves is the state after the point. With
  this the library's launch theorem runs the whole program: it terminates, nothing faults, and the argument arrays —
  which no window stages and no host line before the region writes — end as they began.
-/
import proofs.«126250_j40355512713642_2_alg».proof.Proof.KernelIdeal.Carried

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases hA : t.val % 16 = 0
  · have h := hA
    by_cases hz : t.val = 0
    · rw [outsAt_A m c t h]
      unfold stA; dsimp only
      unfold out5_A sout_A
      rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t)).2.2 Set.univ _)
      isplitl [H0]; · iexact H0
      isplitl [H1]; · iexact H1
      isplitl [H2]; · iexact H2
      isplitl [H5]; · iexists _; iexact H5
      isplitl [HS]; · iexact HS
      iintro ⟨H0, H1, H2, ⟨%e5, H5⟩, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_A c _ _ _ _ _ _ _ _ _ _ _ _ _ _ _ _ _ _ _ _ _ _)
    · rw [outsAt_A m c t h]
      unfold stA; dsimp only
      unfold out5_A sout_A
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t)).2.2 Set.univ _)
      isplitl [H0]; · iexact H0
      isplitl [H1]; · iexact H1
      isplitl [H2]; · iexact H2
      isplitl [H5]; · iexists _; iexact H5
      isplitl [HS]; · iexists _; iexact HS
      iintro ⟨H0, H1, H2, ⟨%e5, H5⟩, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_A c _ _ _ _ _ _ _ _ _ _ _ _ _ _ _ _ _ _ _ _ _ _)
  · have hz : t.val ≠ 0 := fun e => hA (by rw [e])
    by_cases hJ : t.val % 16 < 4
    · have h := hJ
      by_cases h3 : t.val % 4 = 3
      · rw [outsAt_C m c t h h3]
        unfold stC; dsimp only
        unfold out5_C sout_C
        simp only [before5_kept m c t (by omega)]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((runC c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) (prevAt m c t).1 (prevAt m c t).2).2.2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_C c _ _ _ _ _ _ _ _ _ _ _ _ _ _ _ _ _ _ _ _ _ _ _ _ _ _)
      · have h0 := hA
        rw [outsAt_B m c t h h0 h3]
        unfold stB; dsimp only
        unfold out5_B sout_B
        simp only [before5_kept m c t (by omega)]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((runB c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) (prevAt m c t).1 (prevAt m c t).2).2.2 Set.univ _)
        isplitl [H0]; · iexact H0
        isplitl [H1]; · iexact H1
        isplitl [H2]; · iexact H2
        isplitl [H5]; · iexact H5
        isplitl [HS]; · iexact HS
        iintro ⟨H0, H1, H2, ⟨%e5, H5⟩, ⟨%es, HS⟩⟩
        isplitl [HS Hg]
        · isplitl [HS]
          · unfold owns; iexists _; isplitr
            swap; · iexact HS
            ipureintro; exact View.read_writes_of_cover _ _ _ _ _ (scover_B c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_B c _ _ _ _ _ _ _ _ _ _ _ _ _ _ _ _ _ _ _ _ _ _ _ _)
    · have h := hJ
      by_cases h0 : t.val % 4 = 0
      · rw [outsAt_D m c t h h0]
        unfold stD; dsimp only
        unfold out5_D
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((runD c (grid0.coords t) (ms0 t) (hs0 t) (ms1 t) (hs1 t) (ms2 t) (hs2 t) (ms3 t) (hs3 t) (ms4 t) (hs4 t) (ms5 t) (hs5 t) scM (Memref.isWhole_whole _) ((hcondK t).mpr h0) (fun hh => by have := (hcondJK t).mp hh; omega) (fun hh => h ((hcondJ t).mp hh)) (fun hh => by have := (hcondL t).mp hh; omega) (iblk m c 0 t) (iblk m c 1 t)).2 Set.univ _)
        isplitl [H0]; · iexact H0
        isplitl [H1]; · iexact H1
        isplitl [H5]; · iexists _; iexact H5
        iintro ⟨H0, H1, ⟨%e5, H5⟩⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_D c _ _ _ _ _ _ _ _ _ _ _ _ _ _ _ _ _ _ _ _ _)
      · by_cases h3 : t.val % 4 = 3
        · rw [outsAt_F m c t h h3]
          unfold stF; dsimp only
          unfold out5_F
          simp only [before5_kept m c t (by omega)]
          rw [PhiS_castSucc m c t, PhiS_pos m c _ _ hz]
          iintro ⟨⟨HS, Hg⟩, Ho, ⟨%d0, H0⟩, ⟨%d1, H1⟩, ⟨%d2, H2⟩, ⟨%d3, H3⟩, ⟨%d4, H4⟩, ⟨%d5, H5⟩⟩
          iapply ((runF c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) (fun hh => h ((hcondJ t).mp hh)) ((hcondL t).mpr h3) (iblk m c 0 t) (iblk m c 1 t) (iblk m c 3 t) (iblk m c 4 t) (prevAt m c t).1 (prevAt m c t).2).2 Set.univ _)
          isplitl [H0]; · iexact H0
          isplitl [H1]; · iexact H1
          isplitl [H3]; · iexact H3
          isplitl [H4]; · iexact H4
          isplitl [H5]; · iexact H5
          isplitl [HS]; · iexact HS
          iintro ⟨H0, H1, H3, H4, ⟨%e5, H5⟩, HS⟩
          isplitl [HS Hg]
          · isplitl [HS]; · iexact HS
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover5_F c _ _ _ _ _ _ _ _ _ _ _ _ _ _ _ _ _ _ _ _ _ _ _ _ _)
        · rw [outsAt_E m c t h h0 h3]
          unfold stE; dsimp only
          unfold out5_E
          simp only [before5_kept m c t (by omega)]
          rw [PhiS_castSucc m c t, PhiS_pos m c _ _ hz]
          iintro ⟨⟨HS, Hg⟩, Ho, ⟨%d0, H0⟩, ⟨%d1, H1⟩, ⟨%d2, H2⟩, ⟨%d3, H3⟩, ⟨%d4, H4⟩, ⟨%d5, H5⟩⟩
          iapply ((runE c (grid0.coords t) (ms0 t) (hs0 t) (ms1 t) (hs1 t) (ms2 t) (hs2 t) (ms3 t) (hs3 t) (ms4 t) (hs4 t) (ms5 t) (hs5 t) scM (Memref.isWhole_whole _) (fun hh => h0 ((hcondK t).mp hh)) (fun hh => by have := (hcondJK t).mp hh; omega) (fun hh => h ((hcondJ t).mp hh)) (fun hh => h3 ((hcondL t).mp hh)) (iblk m c 0 t) (iblk m c 1 t) (prevAt m c t).1).2 Set.univ _)
          isplitl [H0]; · iexact H0
          isplitl [H1]; · iexact H1
          isplitl [H5]; · iexact H5
          iintro ⟨H0, H1, ⟨%e5, H5⟩⟩
          isplitl [HS Hg]
          · isplitl [HS]; · iexact HS
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover5_E c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulator holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

set_option backward.isDefEq.respectTransparency.types false in
/-- Every weakly fair execution of the program terminates, nothing faulting, every array of the pipeline ending at
    what the library computes from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KernelIdeal.Pieces.lean ====
/-
  What each case of the body leaves in the result block's buffer and in the low-rank accumulator.

  Every store of the body writes a whole buffer, so after a case has run a buffer holds the value of the last store
  into it. That value is one of the body's arithmetic terms, evaluated at what the body read before the store: the
  input blocks, the buffer's earlier contents, or — when the case has already stored into the buffer it reads — the
  value of that earlier store. So a case that clears a buffer and then accumulates into it leaves the product added to
  the cleared value, and the last case of a row of blocks adds the correction and the bias to the product it has just
  accumulated.
-/
import proofs.«126250_j40355512713642_2_alg».proof.Proof.KernelIdeal.Carried
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every store and load of the body: the origin of the buffer. -/
theorem origin2 : (![0, 0] : Fin 2 → Nat) = fun _ => 0 := funext fun a => by fin_cases a <;> rfl

/-- A middle block of the shared columns, away from the first column block of the result: the result block takes this
    block's product on top of what it held. -/
theorem out5_E_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : ¬condL i)
    (x0 : Vec F S1024x1024 .bf16) (x1 : Vec F S1024x1024 .bf16) (xo : Vec F S1024x1024 .f32) :
    out5_E c i arg3 harg3 arg4 harg4 arg5 harg5 arg6 harg6 arg7 harg7 arg8 harg8 arg9 harg9 hK hJK hJ hL x0 x1 xo = k0_pay4 x0 x1 xo := by
  unfold out5_E
  rw [View.read_writes_eq_canon _ _ _ (cover5_E c i arg3 harg3 arg4 harg4 arg5 harg5 arg6 harg6 arg7 harg7 arg8 harg8 arg9 harg9 hK hJK hJ hL x0 x1 xo)]
  unfold runE
  dsimp only
  rw [View.canon_unit_zero origin2]
  simp only [View.readAt_eq_ld, harg3.read_unread, harg4.read_unread, harg8.read_unread,
    View.ld_unit_zero (S := S1024x1024) origin2]

/-- A middle block of the shared columns in the first column block of the result: the result block takes this
    block's product on top of what it held. -/
theorem out5_B_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i)
    (x0 : Vec F S1024x1024 .bf16) (x1 : Vec F S1024x1024 .bf16) (x2 : Vec F S128x1024 .bf16) (xo : Vec F S1024x1024 .f32) (xs : Vec F S1024x128 .f32) :
    out5_B c i arg3 harg3 arg4 harg4 arg5 harg5 arg6 harg6 arg7 harg7 arg8 harg8 arg9 harg9 hK hJK hJ hL x0 x1 x2 xo xs = k0_pay4 x0 x1 xo := by
  unfold out5_B
  rw [View.read_writes_eq_canon _ _ _ (cover5_B c i arg3 harg3 arg4 harg4 arg5 harg5 arg6 harg6 arg7 harg7 arg8 harg8 arg9 harg9 hK hJK hJ hL x0 x1 x2 xo xs)]
  unfold runB
  dsimp only
  sl_unfold_words
  rw [View.canon_unit_zero origin2]
  simp only [View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

/-- At the same points the accumulator takes this block's share of the projection on top of what it held. -/
theorem sout_B_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : ¬condL i)
    (x0 : Vec F S1024x1024 .bf16) (x1 : Vec F S1024x1024 .bf16) (x2 : Vec F S128x1024 .bf16) (xo : Vec F S1024x1024 .f32) (xs : Vec F S1024x128 .f32) :
    sout_B c i arg3 harg3 arg4 harg4 arg5 harg5 arg6 harg6 arg7 harg7 arg8 harg8 arg9 harg9 hK hJK hJ hL x0 x1 x2 xo xs = k0_pay5 x0 x2 xs := by
  unfold sout_B
  rw [View.read_writes_eq_canon _ _ _ (scover_B c i arg3 harg3 arg4 harg4 arg5 harg5 arg6 harg6 arg7 harg7 arg8 harg8 arg9 harg9 hK hJK hJ hL x0 x1 x2 xo xs)]
  unfold runB
  dsimp only
  sl_unfold_words
  rw [View.canon_unit_zero origin2]
  simp only [View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

/-- The first point of a row of blocks: the result block is cleared, and takes the first block's product on top of
    the cleared value, which the body reads back from the buffer it has just written. -/
theorem out5_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i)
    (x0 : Vec F S1024x1024 .bf16) (x1 : Vec F S1024x1024 .bf16) (x2 : Vec F S128x1024 .bf16) :
    out5_A c i arg3 harg3 arg4 harg4 arg5 harg5 arg6 harg6 arg7 harg7 arg8 harg8 arg9 harg9 hK hJK hJ hL x0 x1 x2 = k0_pay4 x0 x1 k0_pay1 := by
  unfold out5_A
  rw [View.read_writes_eq_canon _ _ _ (cover5_A c i arg3 harg3 arg4 harg4 arg5 harg5 arg6 harg6 arg7 harg7 arg8 harg8 arg9 harg9 hK hJK hJ hL x0 x1 x2)]
  unfold runA
  dsimp only
  sl_unfold_words
  rw [View.canon_cons_unit_zero (S := S1024x1024) origin2]
  simp only [View.readCov_unit_zero (S := S1024x1024) _ origin2, View.readCov_unit_zero (S := S1024x128) _ origin2,
    View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

/-- At the same point the accumulator is cleared and takes the first block's share of the projection on top of the
    cleared value. -/
theorem sout_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : condJK i) (hJ : condJ i) (hL : ¬condL i)
    (x0 : Vec F S1024x1024 .bf16) (x1 : Vec F S1024x1024 .bf16) (x2 : Vec F S128x1024 .bf16) :
    sout_A c i arg3 harg3 arg4 harg4 arg5 harg5 arg6 harg6 arg7 harg7 arg8 harg8 arg9 harg9 hK hJK hJ hL x0 x1 x2 = k0_pay5 x0 x2 k0_pay2 := by
  unfold sout_A
  rw [View.read_writes_eq_canon _ _ _ (scover_A c i arg3 harg3 arg4 harg4 arg5 harg5 arg6 harg6 arg7 harg7 arg8 harg8 arg9 harg9 hK hJK hJ hL x0 x1 x2)]
  unfold runA
  dsimp only
  sl_unfold_words
  rw [View.canon_cons_unit_zero (S := S1024x128) origin2]
  simp only [View.readCov_unit_zero (S := S1024x1024) _ origin2, View.readCov_unit_zero (S := S1024x128) _ origin2,
    View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

/-- The last block of the shared columns in the first column block of the result: the result block takes the last
    product, and then the correction — formed from the accumulator as the body has just completed it — and the bias
    are added to that sum, both read back from the buffers just written. -/
theorem out5_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i)
    (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) :
    out5_C c i arg3 harg3 arg4 harg4 arg5 harg5 arg6 harg6 arg7 harg7 arg8 harg8 arg9 harg9 hK hJK hJ hL x0 x1 x2 x3 x4 xo xs = k0_pay6 x3 (k0_pay5 x0 x2 xs) (k0_pay4 x0 x1 xo) x4 := by
  unfold out5_C
  rw [View.read_writes_eq_canon _ _ _ (cover5_C c i arg3 harg3 arg4 harg4 arg5 harg5 arg6 harg6 arg7 harg7 arg8 harg8 arg9 harg9 hK hJK hJ hL x0 x1 x2 x3 x4 xo xs)]
  unfold runC
  dsimp only
  sl_unfold_words
  rw [View.canon_cons_unit_zero (S := S1024x1024) origin2]
  simp only [View.readCov_unit_zero (S := S1024x1024) _ origin2, View.readCov_unit_zero (S := S1024x128) _ origin2,
    View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

/-- At the same points the accumulator takes the last block's share of the projection. -/
theorem sout_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : condJ i) (hL : condL i)
    (x0 : Vec F S1024x1024 .bf16) (x1 : Vec F S1024x1024 .bf16) (x2 : Vec F S128x1024 .bf16) (x3 : Vec F S1024x128 .bf16) (x4 : Vec F S1x1024 .f32) (xo : Vec F S1024x1024 .f32) (xs : Vec F S1024x128 .f32) :
    sout_C c i arg3 harg3 arg4 harg4 arg5 harg5 arg6 harg6 arg7 harg7 arg8 harg8 arg9 harg9 hK hJK hJ hL x0 x1 x2 x3 x4 xo xs = k0_pay5 x0 x2 xs := by
  unfold sout_C
  rw [View.read_writes_eq_canon _ _ _ (scover_C c i arg3 harg3 arg4 harg4 arg5 harg5 arg6 harg6 arg7 harg7 arg8 harg8 arg9 harg9 hK hJK hJ hL x0 x1 x2 x3 x4 xo xs)]
  unfold runC
  dsimp only
  sl_unfold_words
  rw [View.canon_unit_zero origin2]
  simp only [View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

/-- The first block of the shared columns in a later column block of the result: the result block is cleared and takes
    the first block's product on top of the cleared value. -/
theorem out5_D_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : condK i) (hJK : ¬condJK i) (hJ : ¬condJ i) (hL : ¬condL i)
    (x0 : Vec F S1024x1024 .bf16) (x1 : Vec F S1024x1024 .bf16) :
    out5_D c i arg3 harg3 arg4 harg4 arg5 harg5 arg6 harg6 arg7 harg7 arg8 harg8 arg9 harg9 hK hJK hJ hL x0 x1 = k0_pay4 x0 x1 k0_pay1 := by
  unfold out5_D
  rw [View.read_writes_eq_canon _ _ _ (cover5_D c i arg3 harg3 arg4 harg4 arg5 harg5 arg6 harg6 arg7 harg7 arg8 harg8 arg9 harg9 hK hJK hJ hL x0 x1)]
  unfold runD
  dsimp only
  sl_unfold_words
  rw [View.canon_cons_unit_zero (S := S1024x1024) origin2]
  simp only [View.readCov_unit_zero (S := S1024x1024) _ origin2, View.readCov_unit_zero (S := S1024x128) _ origin2,
    View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

/-- The last block of the shared columns in a later column block of the result: the result block takes the last
    product, and the correction — formed from the accumulator as it was left by the first column block — and the bias
    are added to that sum. -/
theorem out5_F_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole)
    (hK : ¬condK i) (hJK : ¬condJK i) (hJ : ¬condJ i) (hL : condL i)
    (x0 : Vec F S1024x1024 .bf16) (x1 : Vec F S1024x1024 .bf16) (x3 : Vec F S1024x128 .bf16) (x4 : Vec F S1x1024 .f32) (xo : Vec F S1024x1024 .f32) (xs : Vec F S1024x128 .f32) :
    out5_F c i arg3 harg3 arg4 harg4 arg5 harg5 arg6 harg6 arg7 harg7 arg8 harg8 arg9 harg9 hK hJK hJ hL x0 x1 x3 x4 xo xs = k0_pay6 x3 xs (k0_pay4 x0 x1 xo) x4 := by
  unfold out5_F
  rw [View.read_writes_eq_canon _ _ _ (cover5_F c i arg3 harg3 arg4 harg4 arg5 harg5 arg6 harg6 arg7 harg7 arg8 harg8 arg9 harg9 hK hJK hJ hL x0 x1 x3 x4 xo xs)]
  unfold runF
  dsimp only
  sl_unfold_words
  rw [View.canon_cons_unit_zero (S := S1024x1024) origin2]
  simp only [View.readCov_unit_zero (S := S1024x1024) _ origin2, View.readCov_unit_zero (S := S1024x128) _ origin2,
    View.readAt_eq_ld, harg3.read_unread, harg4.read_unread, harg5.read_unread, harg6.read_unread,
    harg7.read_unread, harg8.read_unread, harg9.read_unread, View.ld_unit_zero (S := S1024x1024) origin2,
    View.ld_unit_zero (S := S128x1024) origin2, View.ld_unit_zero (S := S1024x128) origin2,
    View.ld_unit_zero (S := S1x1024) origin2]

end Cert.KernelIdeal.Body

end
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.Spec.lean ====
/-
  The function both programs compute, index by index, on the extended reals.

  For an activation matrix `x : 8192 × 4096`, a weight matrix `w : 4096 × 4096`, a bias `b : 4096` and a rank-16
  correction given by its two factors `la : 4096 × 16` and `lb : 16 × 4096`, the result at row `t`, column `o` is

      ∑ₖ x(t,k)·w(o,k)  +  3 · ∑ᵣ (∑ₖ x(t,k)·lb(r,k)) · la(o,r)  +  b(o),

  the dense product `x·wᵀ`, three times the low-rank product `(x·lbᵀ)·laᵀ`, and the bias broadcast over the rows.
  The factor three is kept as the float word both programs spell it with.
-/
import Idealize.ShloMosaic.PureOps.Ideal
import Idealize.ShloMosaic.Lib.ValueIdx

noncomputable section

open scoped BigOperators

namespace Cert.Lora

open Idealize.ShloMosaic Idealize.ShloMosaic.ValueIdx

/-- The scale of the low-rank correction: the float word `3.0`, read on the extended reals. -/
def three : EReal := Ideal.ofBits .f32 0x40400000#32

/-- The dense product `x·wᵀ` at row `t`, column `o`. -/
def base (x : (⟨2, ![8192, 4096]⟩ : Shape).Idx → EReal) (w : (⟨2, ![4096, 4096]⟩ : Shape).Idx → EReal)
    (t : Fin 8192) (o : Fin 4096) : EReal :=
  ∑ k : Fin 4096, x (ix2 t k) * w (ix2 o k)

/-- The projection `x·lbᵀ` onto the sixteen directions of the correction, at row `t`, direction `r`. -/
def low (x : (⟨2, ![8192, 4096]⟩ : Shape).Idx → EReal) (lb : (⟨2, ![16, 4096]⟩ : Shape).Idx → EReal)
    (t : Fin 8192) (r : Fin 16) : EReal :=
  ∑ k : Fin 4096, x (ix2 t k) * lb (ix2 r k)

/-- The low-rank product `(x·lbᵀ)·laᵀ` at row `t`, column `o`. -/
def delta (x : (⟨2, ![8192, 4096]⟩ : Shape).Idx → EReal) (la : (⟨2, ![4096, 16]⟩ : Shape).Idx → EReal)
    (lb : (⟨2, ![16, 4096]⟩ : Shape).Idx → EReal) (t : Fin 8192) (o : Fin 4096) : EReal :=
  ∑ r : Fin 16, low x lb t r * la (ix2 o r)

/-- The result: dense product plus three times the low-rank product, plus the bias of the column. -/
def G (x : (⟨2, ![8192, 4096]⟩ : Shape).Idx → EReal) (w : (⟨2, ![4096, 4096]⟩ : Shape).Idx → EReal)
    (b : (⟨1, ![4096]⟩ : Shape).Idx → EReal) (la : (⟨2, ![4096, 16]⟩ : Shape).Idx → EReal)
    (lb : (⟨2, ![16, 4096]⟩ : Shape).Idx → EReal) : (⟨2, ![8192, 4096]⟩ : Shape).Idx → EReal :=
  fun i => (base x w (i 0) (i 1) + three * delta x la lb (i 0) (i 1)) + b (ix1 (i 1))

end Cert.Lora

end
-- ==== Proof.Payloads.lean ====
/-
  The values the kernel body stores, read at an index, on the extended reals.

  One step of the kernel holds a 1024 × 1024 block of the activations, a 1024 × 1024 block of the weights, and two
  running sums: the dense product's 1024 × 1024 block and the projection's 1024 × 128 block. Each value it stores is
  named here entry by entry:

  * the two running sums start at zero (`pay1_apply`, `pay2_apply`);
  * the dense sum gains, at `(p, c)`, the 1024 products of row `p` of the activation block with row `c` of the weight
    block (`pay4_apply`);
  * the projection gains, at `(p, r)`, the 1024 products of row `p` of the activation block with row `r` of the second
    factor's block (`pay5_apply`);
  * the last step adds to the dense sum, at `(p, c)`, three times the 128 products of row `p` of the projection with
    row `c` of the first factor's block, and the bias of column `c` (`pay6_apply`).

  Every product here contracts the last axis of both operands, so each is a sum over the shared axis of entries at
  `(p, k)` and `(c, k)`; a cast between equal shapes is the identity, narrowing a float is the identity on the extended
  reals, and the bias row is repeated down the 1024 rows.
-/
import proofs.«126250_j40355512713642_2_alg».proof.Proof.Gen.KernelIdeal.Skeleton
import proofs.«126250_j40355512713642_2_alg».proof.Proof.LibGramDot
import proofs.«126250_j40355512713642_2_alg».proof.Proof.Spec
import Idealize.ShloMosaic.Lib.ValueLayout

noncomputable section

open scoped BigOperators

namespace Cert.KernelIdeal.PayValue

open Idealize.ShloMosaic Idealize.ShloMosaic.ValueIdx Cert.KernelIdeal Cert.KernelIdeal.Gen

/-- The dense running sum is started at zero. -/
theorem pay1_apply (i : S1024x1024.Idx) : k0_pay1 (F := Ideal) i = 0 := by
  unfold k0_pay1
  exact Ideal.ofBits_zero_f32

/-- The projection's running sum is started at zero. -/
theorem pay2_apply (i : S1024x128.Idx) : k0_pay2 (F := Ideal) i = 0 := by
  unfold k0_pay2
  rw [shapeCast_self]
  exact Ideal.ofBits_zero_f32

/-- One more block of the dense product: the sum so far plus row `p` of the activation block against row `c` of the
    weight block. -/
theorem pay4_apply (v8 v10 : Vec Ideal S1024x1024 .bf16) (v12 : Vec Ideal S1024x1024 .f32) (p c : Fin 1024) :
    k0_pay4 v8 v10 v12 (ix2 p c) = v12 (ix2 p c) + ∑ q : Fin 1024, v8 (ix2 p q) * v10 (ix2 c q) := by
  unfold k0_pay4 k0_pay3
  rw [shapeCast_self, shapeCast_self, shapeCast_self]
  exact congrArg (v12 (ix2 p c) + ·) (Cert.Lib.GramDot.matmul_transposedRhs_zero_apply none v8 v10 p c)

/-- One more block of the projection: the sum so far plus row `p` of the activation block against row `r` of the
    second factor's block. -/
theorem pay5_apply (v8 : Vec Ideal S1024x1024 .bf16) (v23 : Vec Ideal S128x1024 .bf16) (v25 : Vec Ideal S1024x128 .f32) (p : Fin 1024) (r : Fin 128) :
    k0_pay5 v8 v23 v25 (ix2 p r) = v25 (ix2 p r) + ∑ q : Fin 1024, v8 (ix2 p q) * v23 (ix2 r q) := by
  unfold k0_pay5 k0_pay3
  rw [shapeCast_self, shapeCast_self, shapeCast_self]
  exact congrArg (v25 (ix2 p r) + ·) (Cert.Lib.GramDot.matmul_transposedRhs_zero_apply none v8 v23 p r)

/-- The last step: the dense sum plus three times row `p` of the projection against row `c` of the first factor's
    block, plus the bias of column `c`. -/
theorem pay6_apply (v23 : Vec Ideal S1024x128 .bf16) (v25 : Vec Ideal S1024x128 .f32) (v28 : Vec Ideal S1024x1024 .f32) (v32 : Vec Ideal S1x1024 .f32) (p c : Fin 1024) :
    k0_pay6 v23 v25 v28 v32 (ix2 p c) = v28 (ix2 p c) + (Cert.Lora.three * (∑ r : Fin 128, v25 (ix2 p r) * v23 (ix2 c r)) + v32 (ix2 (0 : Fin 1) c)) := by
  unfold k0_pay6
  rw [shapeCast_self, shapeCast_self, shapeCast_self]
  -- the low-rank product at `(p, c)`: the narrowed projection is the projection itself
  have hdot : matmul (φ₂ := .bf16) dot_S1024x128_S1024x128_S1024x1024_1_1_0_0_n_n none (truncf .bf16 v25 bitsLt_bf16_f32)
      v23 (constant (F := Ideal) S1024x1024 .f32 0x00000000#32) (ix2 p c)
        = ∑ r : Fin 128, v25 (ix2 p r) * v23 (ix2 c r) :=
    Cert.Lib.GramDot.matmul_transposedRhs_zero_apply (φ₂ := .bf16) none (truncf .bf16 v25 bitsLt_bf16_f32) v23 p c
  -- the bias row repeated down the rows
  have hrow : broadcastTo S1024x1024 v32 broadcasts_S1x1024_S1024x1024 (ix2 p c) = v32 (ix2 (0 : Fin 1) c) :=
    broadcastTo_1b_ab_apply v32 _ p c
  exact congrArg (v28 (ix2 p c) + ·) (congrArg₂ (fun a b => Cert.Lora.three * a + b) hdot hrow)

end Cert.KernelIdeal.PayValue

end
-- ==== Proof.LibPadRead.lean ====
/-
  A `stablehlo.pad` with no interior padding, read at an index. Such a pad lays its operand into the result at the low
  padding's offsets and fills the rest with the padding value: an index whose every coordinate is the low padding plus a
  coordinate of the operand reads the operand there (`pad_inside`); an index with some coordinate below the low padding,
  or at or past the low padding plus the operand's extent, reads the padding value (`pad_outside`). Any rank; the
  interior padding is given as a function with a proof that it is zero on every axis, so a literal `![0, …, 0]` fits.
-/
import Idealize.ShloMosaic.Lib.Pipeline.Value

noncomputable section

open Idealize.ShloMosaic

namespace PadRead

variable {α : Type} {s t u : Shape}

/-- Inside the operand's image: the operand at the index less the low padding. -/
theorem pad_inside (lo hi interior : Fin s.rank → Nat) (h0 : ∀ a, interior a = 0) (x : s.Idx → α) (v : u.Idx → α)
    (h : s.Pads lo hi interior t) (hu : 0 < u.numel) (j : t.Idx) (k : s.Idx)
    (hk : ∀ a : Fin s.rank, (j (a.cast h.1)).val = lo a + (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := fun a => by
    have := hk a; have hlt := (k a).isLt
    rw [h0 a, Nat.zero_add, Nat.div_one, Nat.mod_one]
    omega
  rw [dif_pos hin]
  refine congrArg x (funext fun a => Fin.ext ?_)
  show ((j (a.cast h.1)).val - lo a) / (interior a + 1) = (k a).val
  have := hk a
  rw [h0 a, Nat.zero_add, Nat.div_one]; omega

/-- Outside it (on some axis the coordinate is below the low padding, or at or past the low padding plus the operand's
    extent): the padding value. -/
theorem pad_outside (lo hi interior : Fin s.rank → Nat) (h0 : ∀ a, interior a = 0) (x : s.Idx → α) (v : u.Idx → α)
    (h : s.Pads lo hi interior t) (hu : 0 < u.numel) (j : t.Idx) (a : Fin s.rank)
    (ha : (j (a.cast h.1)).val < lo a ∨ lo a + s.size a ≤ (j (a.cast h.1)).val) :
    pad t lo hi interior x v h hu j = v (Shape.Idx.first hu) := by
  unfold pad
  rw [dif_neg]
  intro hin
  have := hin a
  rw [h0 a, Nat.zero_add, Nat.div_one] at this
  omega

end PadRead

end
-- ==== Proof.Prelude.lean ====
/-
  The arrays the kernel's windows stage, as the region finds them, in terms of the argument arrays.

  Before the region the host narrows the activations and the weights to the short float format, pads the two factors of
  the rank-16 correction with zeros up to rank 128 — the first factor `4096 × 16` by 112 columns on the right, the second
  `16 × 4096` by 112 rows below — and narrows them too, and lays the bias vector out as a single row. On the extended reals
  narrowing is the identity, so the staged activations and weights are the arguments themselves (`V_v0`, `V_v1`); a staged
  factor read at an index is the factor there when the rank coordinate is below 16 and zero otherwise (`V_v3_apply`,
  `V_v5_apply`); the staged bias row at column `o` is the bias at `o` (`V_v6_apply`).

  Each staged array is first written as the host operations' term of the argument arrays (`V_v3_eq`, `V_v5_eq`,
  `V_v6_eq`), then that term is read at the index: a pad with no interior padding reads its operand inside the operand's
  extent and the padding value outside it, and the padding value here is the integer zero converted to a float.
-/
import proofs.«126250_j40355512713642_2_alg».proof.Proof.Gen.KernelIdeal.Frame
import proofs.«126250_j40355512713642_2_alg».proof.Proof.LibPadRead
import Idealize.ShloMosaic.Lib.ValueLayout

noncomputable section

namespace Cert.KernelIdeal.PreValue

open Idealize.ShloMosaic Idealize.ShloMosaic.TcCoe Idealize.ShloMosaic.ValueIdx Cert.KernelIdeal Cert.KernelIdeal.Gen
open Idealize.SL.Sem

variable (m : (ℓ : Loc nD τ sig) → Buf (Elt Ideal) ℓ) (c : Dev nD)

/-- Narrowing a float is the identity on the extended reals: the narrowed activations are the activations. -/
theorem V_v0 : (Gen.V m c main_v0 : S8192x4096.Idx → EReal) = m ((c : Thread nD τ).loc main_arg0) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The narrowed weights are the weights. -/
theorem V_v1 : (Gen.V m c main_v1 : S4096x4096.Idx → EReal) = m ((c : Thread nD τ).loc main_arg1) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The second factor as staged: its sixteen rows followed by 112 rows of the padding value. -/
theorem V_v5_eq : (Gen.V m c main_v5 : S128x4096.Idx → EReal)
    = pad S128x4096 ![0, 0] ![112, 0] ![0, 0] (m ((c : Thread nD τ).loc main_arg4) : S16x4096.Idx → EReal)
        (sitofp (F := Ideal) .f32 (constantI S_ 32 0#32)) pads_S16x4096_S128x4096_01120_000 h_S_ := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The first factor as staged: its sixteen columns followed by 112 columns of the padding value. -/
theorem V_v3_eq : (Gen.V m c main_v3 : S4096x128.Idx → EReal)
    = pad S4096x128 ![0, 0] ![0, 112] ![0, 0] (m ((c : Thread nD τ).loc main_arg3) : S4096x16.Idx → EReal)
        (sitofp (F := Ideal) .f32 (constantI S_ 32 0#32)) pads_S4096x16_S4096x128_000_01120 h_S_ := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The bias as staged: the vector laid out as one row. -/
theorem V_v6_eq : (Gen.V m c main_v6 : S1x4096.Idx → EReal)
    = shapeCast S1x4096 (m ((c : Thread nD τ).loc main_arg2) : S4096.Idx → EReal) shapeCasts_S4096_S1x4096 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The padding value, the integer zero converted to a float, is the extended real zero. -/
theorem pad_zero (i : S_.Idx) : (sitofp (F := Ideal) .f32 (constantI S_ 32 0#32) : FVec Ideal S_ .f32) i = 0 := by
  show ((((0#32 : BitVec 32).toInt : ℤ) : ℝ) : EReal) = 0
  simp

/-- No interior padding on either axis. -/
theorem interior_zero : ∀ a : Fin 2, (![0, 0] : Fin 2 → Nat) a = 0 := fun a => by
  match a with
  | ⟨0, _⟩ => rfl
  | ⟨1, _⟩ => rfl

/-- Row `r` of the staged second factor: the factor's row for `r < 16`, zero for the 112 rows added below. -/
theorem V_v5_apply (r : Fin 128) (k : Fin 4096) : (Gen.V m c main_v5 : S128x4096.Idx → EReal) (ix2 r k) = (if h : r.val < 16 then (m ((c : Thread nD τ).loc main_arg4) : S16x4096.Idx → EReal) (ix2 ⟨r.val, h⟩ k) else 0 : EReal) := by
  rw [V_v5_eq]
  split
  · rename_i h
    exact PadRead.pad_inside (s := S16x4096) (t := S128x4096) (u := S_) ![0, 0] ![112, 0] ![0, 0] interior_zero _ _
      pads_S16x4096_S128x4096_01120_000 h_S_ (ix2 r k) (ix2 ⟨r.val, h⟩ k) (fun a => by
        match a with
        | ⟨0, _⟩ => exact (Nat.zero_add _).symm
        | ⟨1, _⟩ => exact (Nat.zero_add _).symm)
  · rename_i h
    refine (PadRead.pad_outside (s := S16x4096) (t := S128x4096) (u := S_) ![0, 0] ![112, 0] ![0, 0] interior_zero _ _
      pads_S16x4096_S128x4096_01120_000 h_S_ (ix2 r k) (0 : Fin 2) (Or.inr ?_)).trans (pad_zero _)
    show 0 + 16 ≤ r.val
    omega

/-- Column `r` of the staged first factor: the factor's column for `r < 16`, zero for the 112 columns added on the right. -/
theorem V_v3_apply (o : Fin 4096) (r : Fin 128) : (Gen.V m c main_v3 : S4096x128.Idx → EReal) (ix2 o r) = (if h : r.val < 16 then (m ((c : Thread nD τ).loc main_arg3) : S4096x16.Idx → EReal) (ix2 o ⟨r.val, h⟩) else 0 : EReal) := by
  rw [V_v3_eq]
  split
  · rename_i h
    exact PadRead.pad_inside (s := S4096x16) (t := S4096x128) (u := S_) ![0, 0] ![0, 112] ![0, 0] interior_zero _ _
      pads_S4096x16_S4096x128_000_01120 h_S_ (ix2 o r) (ix2 o ⟨r.val, h⟩) (fun a => by
        match a with
        | ⟨0, _⟩ => exact (Nat.zero_add _).symm
        | ⟨1, _⟩ => exact (Nat.zero_add _).symm)
  · rename_i h
    refine (PadRead.pad_outside (s := S4096x16) (t := S4096x128) (u := S_) ![0, 0] ![0, 112] ![0, 0] interior_zero _ _
      pads_S4096x16_S4096x128_000_01120 h_S_ (ix2 o r) (1 : Fin 2) (Or.inr ?_)).trans (pad_zero _)
    show 0 + 16 ≤ r.val
    omega

/-- The staged bias row at column `o` is the bias at `o`. -/
theorem V_v6_apply (o : Fin 4096) : (Gen.V m c main_v6 : S1x4096.Idx → EReal) (ix2 (0 : Fin 1) o) = (m ((c : Thread nD τ).loc main_arg2) : S4096.Idx → EReal) (ix1 o) := by
  rw [V_v6_eq]
  exact shapeCast_a_1a_apply _ _ (0 : Fin 1) o

end Cert.KernelIdeal.PreValue

end
-- ==== Proof.Blocks.lean ====
/-
  Partial products over the leading column blocks.

  The kernel walks the 4096 shared columns of its matrix products in four blocks of 1024. What it holds after the
  first `n` blocks of a product `X·Wᵀ`, at row `T` of `X` and row `O` of `W`, is the sum over those blocks of the sum over
  the 1024 positions inside a block (`dotUpTo`). Rows and columns are given as natural numbers through a total accessor
  (`at2`: zero outside the matrix), so that a position `1024·s + q` needs no bound carried beside it.
-/
import proofs.«126250_j40355512713642_2_alg».proof.Proof.Spec

noncomputable section

open scoped BigOperators

namespace Cert.Lora

open Idealize.ShloMosaic Idealize.ShloMosaic.ValueIdx

/-- The entry of a matrix at natural-number coordinates, zero outside it. -/
def at2 {A B : ℕ} (f : (⟨2, ![A, B]⟩ : Shape).Idx → EReal) (a b : ℕ) : EReal :=
  if h : a < A ∧ b < B then f (ix2 ⟨a, h.1⟩ ⟨b, h.2⟩) else 0

/-- Inside the matrix the accessor is the entry. -/
theorem at2_ix2 {A B : ℕ} (f : (⟨2, ![A, B]⟩ : Shape).Idx → EReal) (a : Fin A) (b : Fin B) :
    at2 f a.val b.val = f (ix2 a b) := by
  unfold at2; rw [dif_pos ⟨a.isLt, b.isLt⟩]

/-- Row `T` of `X` against row `O` of `W`, over the first `n` blocks of 1024 shared columns. -/
def dotUpTo {A B C : ℕ} (X : (⟨2, ![A, C]⟩ : Shape).Idx → EReal) (W : (⟨2, ![B, C]⟩ : Shape).Idx → EReal)
    (T O n : ℕ) : EReal :=
  ∑ s ∈ Finset.range n, ∑ q : Fin 1024, at2 X T (1024 * s + q.val) * at2 W O (1024 * s + q.val)

/-- No block: the empty sum. -/
theorem dotUpTo_zero {A B C : ℕ} (X : (⟨2, ![A, C]⟩ : Shape).Idx → EReal) (W : (⟨2, ![B, C]⟩ : Shape).Idx → EReal)
    (T O : ℕ) : dotUpTo X W T O 0 = 0 := by
  unfold dotUpTo; rw [Finset.sum_range_zero]

/-- One more block: the sum so far plus that block's 1024 terms. -/
theorem dotUpTo_succ {A B C : ℕ} (X : (⟨2, ![A, C]⟩ : Shape).Idx → EReal) (W : (⟨2, ![B, C]⟩ : Shape).Idx → EReal)
    (T O n : ℕ) :
    dotUpTo X W T O (n + 1)
      = dotUpTo X W T O n + ∑ q : Fin 1024, at2 X T (1024 * n + q.val) * at2 W O (1024 * n + q.val) := by
  unfold dotUpTo; rw [Finset.sum_range_succ]

end Cert.Lora

end
-- ==== Proof.BlockReads.lean ====
/-
  Each input window's block at a grid point, read at an index.

  The kernel runs over an 8 × 4 × 4 grid, the last coordinate fastest: point `t` works on row block `i = t / 16` of the
  activations, row block `j = t / 4 % 4` of the weights (a column block of the result) and block `k = t % 4` of the 4096
  shared columns. The windows' index maps give, at that point, block `(i, k)` of the activations, `(j, k)` of the
  weights, `(0, k)` of the second factor (128 rows by 1024 columns), `(j, 0)` of the first factor (1024 rows by 128
  columns) and `(0, j)` of the bias row. A block's entry is the staged array's entry at the block's index times the
  block's extent plus the position inside the block; it is stated through the total accessor at natural-number
  coordinates, which inside the array is the entry itself.
-/
import proofs.«126250_j40355512713642_2_alg».proof.Proof.Gen.KernelIdeal.Frame
import proofs.«126250_j40355512713642_2_alg».proof.Proof.Gen.KernelIdeal.Points
import proofs.«126250_j40355512713642_2_alg».proof.Proof.Blocks

noncomputable section

namespace Cert.KernelIdeal.BlockRead

open Idealize.ShloMosaic Idealize.ShloMosaic.TcCoe Idealize.ShloMosaic.ValueIdx Cert.KernelIdeal Cert.KernelIdeal.Gen
open Idealize.SL.Sem

variable (m : (ℓ : Loc nD τ sig) → Buf (Elt Ideal) ℓ) (c : Dev nD) (t : Fin cfg0.N)

/-! ## The index maps over the grid, in closed form

Point `t` of the 8 × 4 × 4 grid, last coordinate fastest, is the row block `t / 16` of the activations, the row block
`t / 4 % 4` of the weights and the block `t % 4` of the shared columns. -/

/-- The activations' window: row block `t / 16`, column block `t % 4`. -/
theorem idx0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)

/-- The weights' window: row block `t / 4 % 4`, column block `t % 4`. -/
theorem idx1 : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)

/-- The second factor's window: all 128 rows, column block `t % 4`. -/
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)

/-- The first factor's window: row block `t / 4 % 4`, all 128 columns. -/
theorem idx3 : ∀ t : Fin cfg0.N, win0_3.index t 0 = t.val / 4 % 4 ∧ win0_3.index t 1 = 0 :=
  (by decide +kernel : ∀ t : Fin grid0.N, win0_3.index t 0 = t.val / 4 % 4 ∧ win0_3.index t 1 = 0)

/-- The bias row's window: the one row, column block `t / 4 % 4`. -/
theorem idx4 : ∀ t : Fin cfg0.N, win0_4.index t 0 = 0 ∧ win0_4.index t 1 = t.val / 4 % 4 :=
  (by decide +kernel : ∀ t : Fin grid0.N, win0_4.index t 0 = 0 ∧ win0_4.index t 1 = t.val / 4 % 4)

/-! ## Each block read at an index

A block's entry `(p, q)` is the array's entry at the block's index times the block's extent plus `(p, q)`. -/

/-- The activation block at point `t`: rows `1024 · (t / 16) + p`, columns `1024 · (t % 4) + q`. -/
theorem iblk0_apply (p q : Fin 1024) : (Gen.iblk m c 0 t : Vec Ideal S1024x1024 .bf16) (ix2 p q) = Cert.Lora.at2 (Gen.V m c main_v0 : S8192x4096.Idx → EReal) (1024 * (t.val / 16) + p.val) (1024 * (t.val % 4) + q.val) := by
  have ht : t.val < 128 := lt_of_lt_of_eq t.isLt (show cfg0.N = 128 from N_0)
  have hi := idx0 t
  have hp := p.isLt
  have hq := q.isLt
  have hb : 1024 * (t.val / 16) + p.val < 8192 ∧ 1024 * (t.val % 4) + q.val < 4096 := ⟨by omega, by omega⟩
  unfold Cert.Lora.at2
  rw [dif_pos hb]
  unfold Gen.iblk
  rw [View.read_apply]
  show Gen.V m c main_v0 _ = Gen.V m c main_v0 _
  congr 1
  funext a
  apply Fin.ext
  match a with
  | ⟨0, _⟩ => show win0_0.index t 0 * 1024 + 1 * p.val = 1024 * (t.val / 16) + p.val; rw [hi.1]; omega
  | ⟨1, _⟩ => show win0_0.index t 1 * 1024 + 1 * q.val = 1024 * (t.val % 4) + q.val; rw [hi.2]; omega

/-- The weight block at point `t`: rows `1024 · (t / 4 % 4) + p`, columns `1024 · (t % 4) + q`. -/
theorem iblk1_apply (p q : Fin 1024) : (Gen.iblk m c 1 t : Vec Ideal S1024x1024 .bf16) (ix2 p q) = Cert.Lora.at2 (Gen.V m c main_v1 : S4096x4096.Idx → EReal) (1024 * (t.val / 4 % 4) + p.val) (1024 * (t.val % 4) + q.val) := by
  have ht : t.val < 128 := lt_of_lt_of_eq t.isLt (show cfg0.N = 128 from N_0)
  have hi := idx1 t
  have hp := p.isLt
  have hq := q.isLt
  have hb : 1024 * (t.val / 4 % 4) + p.val < 4096 ∧ 1024 * (t.val % 4) + q.val < 4096 := ⟨by omega, by omega⟩
  unfold Cert.Lora.at2
  rw [dif_pos hb]
  unfold Gen.iblk
  rw [View.read_apply]
  show Gen.V m c main_v1 _ = Gen.V m c main_v1 _
  congr 1
  funext a
  apply Fin.ext
  match a with
  | ⟨0, _⟩ => show win0_1.index t 0 * 1024 + 1 * p.val = 1024 * (t.val / 4 % 4) + p.val; rw [hi.1]; omega
  | ⟨1, _⟩ => show win0_1.index t 1 * 1024 + 1 * q.val = 1024 * (t.val % 4) + q.val; rw [hi.2]; omega

/-- The second factor's block at point `t`: row `r`, columns `1024 · (t % 4) + q`. -/
theorem iblk2_apply (r : Fin 128) (q : Fin 1024) : (Gen.iblk m c 2 t : Vec Ideal S128x1024 .bf16) (ix2 r q) = Cert.Lora.at2 (Gen.V m c main_v5 : S128x4096.Idx → EReal) r.val (1024 * (t.val % 4) + q.val) := by
  have ht : t.val < 128 := lt_of_lt_of_eq t.isLt (show cfg0.N = 128 from N_0)
  have hi := idx2 t
  have hr := r.isLt
  have hq := q.isLt
  have hb : r.val < 128 ∧ 1024 * (t.val % 4) + q.val < 4096 := ⟨hr, by omega⟩
  unfold Cert.Lora.at2
  rw [dif_pos hb]
  unfold Gen.iblk
  rw [View.read_apply]
  show Gen.V m c main_v5 _ = Gen.V m c main_v5 _
  congr 1
  funext a
  apply Fin.ext
  match a with
  | ⟨0, _⟩ => show win0_2.index t 0 * 128 + 1 * r.val = r.val; rw [hi.1]; omega
  | ⟨1, _⟩ => show win0_2.index t 1 * 1024 + 1 * q.val = 1024 * (t.val % 4) + q.val; rw [hi.2]; omega

/-- The first factor's block at point `t`: rows `1024 · (t / 4 % 4) + p`, column `r`. -/
theorem iblk3_apply (p : Fin 1024) (r : Fin 128) : (Gen.iblk m c 3 t : Vec Ideal S1024x128 .bf16) (ix2 p r) = Cert.Lora.at2 (Gen.V m c main_v3 : S4096x128.Idx → EReal) (1024 * (t.val / 4 % 4) + p.val) r.val := by
  have ht : t.val < 128 := lt_of_lt_of_eq t.isLt (show cfg0.N = 128 from N_0)
  have hi := idx3 t
  have hp := p.isLt
  have hr := r.isLt
  have hb : 1024 * (t.val / 4 % 4) + p.val < 4096 ∧ r.val < 128 := ⟨by omega, hr⟩
  unfold Cert.Lora.at2
  rw [dif_pos hb]
  unfold Gen.iblk
  rw [View.read_apply]
  show Gen.V m c main_v3 _ = Gen.V m c main_v3 _
  congr 1
  funext a
  apply Fin.ext
  match a with
  | ⟨0, _⟩ => show win0_3.index t 0 * 1024 + 1 * p.val = 1024 * (t.val / 4 % 4) + p.val; rw [hi.1]; omega
  | ⟨1, _⟩ => show win0_3.index t 1 * 128 + 1 * r.val = r.val; rw [hi.2]; omega

/-- The bias row's block at point `t`: columns `1024 · (t / 4 % 4) + q` of the one row. -/
theorem iblk4_apply (q : Fin 1024) : (Gen.iblk m c 4 t : Vec Ideal S1x1024 .f32) (ix2 (0 : Fin 1) q) = Cert.Lora.at2 (Gen.V m c main_v6 : S1x4096.Idx → EReal) 0 (1024 * (t.val / 4 % 4) + q.val) := by
  have ht : t.val < 128 := lt_of_lt_of_eq t.isLt (show cfg0.N = 128 from N_0)
  have hi := idx4 t
  have hq := q.isLt
  have hb : 0 < 1 ∧ 1024 * (t.val / 4 % 4) + q.val < 4096 := ⟨Nat.one_pos, by omega⟩
  unfold Cert.Lora.at2
  rw [dif_pos hb]
  unfold Gen.iblk
  rw [View.read_apply]
  show Gen.V m c main_v6 _ = Gen.V m c main_v6 _
  congr 1
  funext a
  apply Fin.ext
  match a with
  | ⟨0, _⟩ => show win0_4.index t 0 * 1 + 1 * 0 = 0; rw [hi.1]
  | ⟨1, _⟩ => show win0_4.index t 1 * 1024 + 1 * q.val = 1024 * (t.val / 4 % 4) + q.val; rw [hi.2]; omega

end Cert.KernelIdeal.BlockRead

end
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.BlockAlgebra.lean ====
/-
  The blocked, rank-padded arrangement computes the specification.

  The kernel forms each product over the 4096 shared columns as four partial sums of 1024 terms, and carries the
  low-rank correction with its rank padded from 16 to 128 by zero rows and columns. Two regroupings of finite sums
  bring this back to the specification. Four consecutive blocks of 1024 terms are the whole sum of 4096 terms. In the
  sum over the 128 padded directions, the first sixteen terms are the true ones and each of the other 112 is a
  product with a zero entry of the padded factor, hence zero: a product with zero is zero on the extended reals
  whatever the other factor is, so nothing needs to be finite. The last step moves a bracket in a sum of three terms.
-/
import proofs.«126250_j40355512713642_2_alg».proof.Proof.Blocks
import proofs.«126250_j40355512713642_2_alg».proof.Proof.LibBlockSum

noncomputable section

open scoped BigOperators

namespace Cert.Lora

open Idealize.ShloMosaic Idealize.ShloMosaic.ValueIdx

/-- A sum of `m + n` terms whose last `n` terms vanish is the sum of its first `m` terms. -/
theorem sum_fin_pad {β : Type*} [AddCommMonoid β] (φ : ℕ → β) (m n N : ℕ) (hN : N = m + n)
    (hz : ∀ k : ℕ, φ (m + k) = 0) : ∑ r : Fin N, φ r.val = ∑ r : Fin m, φ r.val := by
  subst hN
  rw [Fin.sum_univ_eq_sum_range φ (m + n), Finset.sum_range_add, Finset.sum_congr rfl (fun k _ => hz k),
    Finset.sum_const_zero, add_zero, ← Fin.sum_univ_eq_sum_range φ m]

/-- All four blocks: the partial product over the four blocks of 1024 columns is the product over all 4096. -/
theorem dotUpTo_four {A B : ℕ} (X : (⟨2, ![A, 4096]⟩ : Shape).Idx → EReal) (W : (⟨2, ![B, 4096]⟩ : Shape).Idx → EReal)
    (t : Fin A) (o : Fin B) :
    dotUpTo X W t.val o.val 4 = ∑ k : Fin 4096, X (ix2 t k) * W (ix2 o k) := by
  have h := BlockSum.sum_fin_blocks (fun K => at2 X t.val K * at2 W o.val K) 1024 4 4096 (by norm_num)
  unfold dotUpTo
  refine h.trans (Finset.sum_congr rfl fun k _ => ?_)
  show at2 X t.val k.val * at2 W o.val k.val = X (ix2 t k) * W (ix2 o k)
  rw [at2_ix2, at2_ix2]

/-- The `n`-th term of the low-rank product at row `t`, column `o`, continued by zero past the sixteenth direction. -/
def deltaTerm (x : (⟨2, ![8192, 4096]⟩ : Shape).Idx → EReal) (la : (⟨2, ![4096, 16]⟩ : Shape).Idx → EReal)
    (lb : (⟨2, ![16, 4096]⟩ : Shape).Idx → EReal) (t : Fin 8192) (o : Fin 4096) (n : ℕ) : EReal :=
  if h : n < 16 then low x lb t ⟨n, h⟩ * la (ix2 o ⟨n, h⟩) else 0

/-- A term of the padded rank sum: a true term in the first sixteen directions, zero in the padding, where the
    padded left factor's entry is zero. -/
theorem padded_term (x : (⟨2, ![8192, 4096]⟩ : Shape).Idx → EReal) (la : (⟨2, ![4096, 16]⟩ : Shape).Idx → EReal)
    (lb : (⟨2, ![16, 4096]⟩ : Shape).Idx → EReal)
    (LA : (⟨2, ![4096, 128]⟩ : Shape).Idx → EReal) (LB : (⟨2, ![128, 4096]⟩ : Shape).Idx → EReal)
    (hLA : ∀ (o : Fin 4096) (r : Fin 128), LA (ix2 o r) = if h : r.val < 16 then la (ix2 o ⟨r.val, h⟩) else 0)
    (hLB : ∀ (r : Fin 128) (k : Fin 4096), LB (ix2 r k) = if h : r.val < 16 then lb (ix2 ⟨r.val, h⟩ k) else 0)
    (t : Fin 8192) (o : Fin 4096) (r : Fin 128) :
    dotUpTo x LB t.val r.val 4 * at2 LA o.val r.val = deltaTerm x la lb t o r.val := by
  rw [dotUpTo_four x LB t r, at2_ix2 LA o r, hLA]
  unfold deltaTerm
  by_cases h : r.val < 16
  · rw [dif_pos h, dif_pos h]
    unfold low
    congr 1
    refine Finset.sum_congr rfl fun k _ => ?_
    rw [hLB, dif_pos h]
  · rw [dif_neg h, dif_neg h, mul_zero]

/-- The rank sum over the 128 padded directions is the low-rank product over its sixteen true directions. -/
theorem padded_rank_sum (x : (⟨2, ![8192, 4096]⟩ : Shape).Idx → EReal) (la : (⟨2, ![4096, 16]⟩ : Shape).Idx → EReal)
    (lb : (⟨2, ![16, 4096]⟩ : Shape).Idx → EReal)
    (LA : (⟨2, ![4096, 128]⟩ : Shape).Idx → EReal) (LB : (⟨2, ![128, 4096]⟩ : Shape).Idx → EReal)
    (hLA : ∀ (o : Fin 4096) (r : Fin 128), LA (ix2 o r) = if h : r.val < 16 then la (ix2 o ⟨r.val, h⟩) else 0)
    (hLB : ∀ (r : Fin 128) (k : Fin 4096), LB (ix2 r k) = if h : r.val < 16 then lb (ix2 ⟨r.val, h⟩ k) else 0)
    (t : Fin 8192) (o : Fin 4096) :
    ∑ r : Fin 128, dotUpTo x LB t.val r.val 4 * at2 LA o.val r.val = delta x la lb t o := by
  rw [Finset.sum_congr rfl (fun r _ => padded_term x la lb LA LB hLA hLB t o r),
    sum_fin_pad (deltaTerm x la lb t o) 16 112 128 (by norm_num)
      (fun k => dif_neg (Nat.not_lt.mpr (Nat.le_add_right 16 k)))]
  unfold delta
  exact Finset.sum_congr rfl fun r _ => dif_pos r.isLt

/-- The kernel's arrangement — the dense product over four blocks, plus three times the padded rank sum together
    with the bias held as a one-row matrix — is the specification at row `t`, column `o`. -/
theorem final_eq_G (x : (⟨2, ![8192, 4096]⟩ : Shape).Idx → EReal) (w : (⟨2, ![4096, 4096]⟩ : Shape).Idx → EReal)
    (b : (⟨1, ![4096]⟩ : Shape).Idx → EReal) (la : (⟨2, ![4096, 16]⟩ : Shape).Idx → EReal)
    (lb : (⟨2, ![16, 4096]⟩ : Shape).Idx → EReal)
    (LA : (⟨2, ![4096, 128]⟩ : Shape).Idx → EReal) (LB : (⟨2, ![128, 4096]⟩ : Shape).Idx → EReal)
    (Bi : (⟨2, ![1, 4096]⟩ : Shape).Idx → EReal)
    (hLA : ∀ (o : Fin 4096) (r : Fin 128), LA (ix2 o r) = if h : r.val < 16 then la (ix2 o ⟨r.val, h⟩) else 0)
    (hLB : ∀ (r : Fin 128) (k : Fin 4096), LB (ix2 r k) = if h : r.val < 16 then lb (ix2 ⟨r.val, h⟩ k) else 0)
    (hBi : ∀ o : Fin 4096, Bi (ix2 (0 : Fin 1) o) = b (ix1 o))
    (t : Fin 8192) (o : Fin 4096) :
    dotUpTo x w t.val o.val 4 + (three * (∑ r : Fin 128, dotUpTo x LB t.val r.val 4 * at2 LA o.val r.val) + at2 Bi 0 o.val)
      = G x w b la lb (ix2 t o) := by
  have hb : at2 Bi 0 o.val = b (ix1 o) := (at2_ix2 Bi (0 : Fin 1) o).trans (hBi o)
  rw [dotUpTo_four x w t o, padded_rank_sum x la lb LA LB hLA hLB t o, hb, ← add_assoc]
  rfl

end Cert.Lora

end
-- ==== Proof.KernelIdeal.Value.lean ====
/-
  The kernel's result, read.

  Write X, W, LB, LA, Bi for the arrays the kernel's windows stage: the activations and the weights (as they are on the
  extended reals), the two low-rank factors padded with zeros from rank 16 to 128, and the bias as a row. After the body
  at point n = 16·i + 4·j + k the result block's buffer holds, at (p, q), the dense product of row 1024·i + p of X with
  row 1024·j + q of W over the first k + 1 column blocks — and at k = 3, added to it, three times the padded low-rank
  product plus the bias —; the accumulator holds the projection of X's rows onto LB's over the first k + 1 column blocks
  while j = 0, and over all four afterwards. This is proved by induction on the point, each step one case of the body's
  branches. The blocks written back (those at k = 3) tile the result array, and by the blocked, rank-padded algebra each
  is the specification's function there.
-/
import proofs.«126250_j40355512713642_2_alg».proof.Proof.KernelIdeal.Body
import proofs.«126250_j40355512713642_2_alg».proof.Proof.KernelIdeal.Pieces
import proofs.«126250_j40355512713642_2_alg».proof.Proof.Payloads
import proofs.«126250_j40355512713642_2_alg».proof.Proof.Prelude
import proofs.«126250_j40355512713642_2_alg».proof.Proof.BlockReads
import proofs.«126250_j40355512713642_2_alg».proof.Proof.BlockAlgebra
import Idealize.ShloMosaic.Lib.Pipeline.Value

set_option maxRecDepth 16384

noncomputable section

open scoped BigOperators

namespace Cert.KernelIdeal.KValue

open Cert.KernelIdeal Cert.KernelIdeal.Gen Cert.KernelIdeal.Body Cert.KernelIdeal.PayValue Cert.KernelIdeal.PreValue
open Cert.KernelIdeal.BlockRead Cert.Lora
open Idealize.ShloMosaic Idealize.ShloMosaic.ValueIdx Idealize.ShloMosaic.TcCoe Idealize.SL.Sem
open Idealize.ShloMosaic.Pipeline (Dat)

/-! ## One block's step, on plain values -/

section steps

variable {A B : ℕ} (X : (⟨2, ![A, 4096]⟩ : Shape).Idx → EReal) (W : (⟨2, ![B, 4096]⟩ : Shape).Idx → EReal)
  (LB : (⟨2, ![128, 4096]⟩ : Shape).Idx → EReal)

/-- The dense product takes one more column block: the buffer held the first `k` blocks' sum, the two input blocks
    are block `k` of rows `1024·I + ·` of `X` and `1024·J + ·` of `W`. -/
theorem acc_step (x0 x1 : Vec Ideal S1024x1024 .bf16) (xo : Vec Ideal S1024x1024 .f32) (I J k : ℕ)
    (h0 : ∀ p q : Fin 1024, x0 (ix2 p q) = at2 X (1024 * I + p.val) (1024 * k + q.val))
    (h1 : ∀ p q : Fin 1024, x1 (ix2 p q) = at2 W (1024 * J + p.val) (1024 * k + q.val))
    (ho : ∀ p q : Fin 1024, xo (ix2 p q) = dotUpTo X W (1024 * I + p.val) (1024 * J + q.val) k)
    (p q : Fin 1024) :
    k0_pay4 x0 x1 xo (ix2 p q) = dotUpTo X W (1024 * I + p.val) (1024 * J + q.val) (k + 1) := by
  rw [pay4_apply, ho, dotUpTo_succ]
  exact congrArg _ (Finset.sum_congr rfl fun q' _ => by rw [h0, h1])

/-- The projection takes one more column block. -/
theorem low_step (x0 : Vec Ideal S1024x1024 .bf16) (x2 : Vec Ideal S128x1024 .bf16) (xs : Vec Ideal S1024x128 .f32) (I k : ℕ)
    (h0 : ∀ p q : Fin 1024, x0 (ix2 p q) = at2 X (1024 * I + p.val) (1024 * k + q.val))
    (h2 : ∀ (r : Fin 128) (q : Fin 1024), x2 (ix2 r q) = at2 LB r.val (1024 * k + q.val))
    (hs : ∀ (p : Fin 1024) (r : Fin 128), xs (ix2 p r) = dotUpTo X LB (1024 * I + p.val) r.val k)
    (p : Fin 1024) (r : Fin 128) :
    k0_pay5 x0 x2 xs (ix2 p r) = dotUpTo X LB (1024 * I + p.val) r.val (k + 1) := by
  rw [pay5_apply, hs, dotUpTo_succ]
  exact congrArg _ (Finset.sum_congr rfl fun q' _ => by rw [h0, h2])

/-- The last step of a result block: to the finished dense product are added three times the padded low-rank product
    — the finished projection against the block of `LA` — and the bias of the column. -/
theorem final_step (LA : (⟨2, ![4096, 128]⟩ : Shape).Idx → EReal) (Bi : (⟨2, ![1, 4096]⟩ : Shape).Idx → EReal)
    (x3 : Vec Ideal S1024x128 .bf16) (s : Vec Ideal S1024x128 .f32) (o : Vec Ideal S1024x1024 .f32) (x4 : Vec Ideal S1x1024 .f32)
    (I J : ℕ)
    (h3 : ∀ (p : Fin 1024) (r : Fin 128), x3 (ix2 p r) = at2 LA (1024 * J + p.val) r.val)
    (h4 : ∀ q : Fin 1024, x4 (ix2 (0 : Fin 1) q) = at2 Bi 0 (1024 * J + q.val))
    (hs : ∀ (p : Fin 1024) (r : Fin 128), s (ix2 p r) = dotUpTo X LB (1024 * I + p.val) r.val 4)
    (ho : ∀ p q : Fin 1024, o (ix2 p q) = dotUpTo X W (1024 * I + p.val) (1024 * J + q.val) 4)
    (p q : Fin 1024) :
    k0_pay6 x3 s o x4 (ix2 p q)
      = dotUpTo X W (1024 * I + p.val) (1024 * J + q.val) 4
        + (three * (∑ r : Fin 128, dotUpTo X LB (1024 * I + p.val) r.val 4 * at2 LA (1024 * J + q.val) r.val)
            + at2 Bi 0 (1024 * J + q.val)) := by
  rw [pay6_apply, ho, h4]
  exact congrArg _ (congrArg (· + _) (congrArg _ (Finset.sum_congr rfl fun r _ => by rw [hs, h3])))

end steps

/-! ## The state after each point, in closed form -/

variable (m : (ℓ : Loc nD τ sig) → Buf (Elt Ideal) ℓ) (ρ : Dev nD → PrngReg)

/-- The staged arrays, as matrices of extended reals. -/
abbrev X (c : Dev nD) : S8192x4096.Idx → EReal := V m c main_v0
abbrev Wt (c : Dev nD) : S4096x4096.Idx → EReal := V m c main_v1
abbrev LB (c : Dev nD) : S128x4096.Idx → EReal := V m c main_v5
abbrev LA (c : Dev nD) : S4096x128.Idx → EReal := V m c main_v3
abbrev Bi (c : Dev nD) : S1x4096.Idx → EReal := V m c main_v6

/-- The result block's buffer after point `n`, at `(p, q)`. -/
def oSpec (c : Dev nD) (n : ℕ) (p q : Fin 1024) : EReal :=
  if n % 4 = 3 then
    dotUpTo (X m c) (Wt m c) (1024 * (n / 16) + p.val) (1024 * (n / 4 % 4) + q.val) 4
      + (three * (∑ r : Fin 128, dotUpTo (X m c) (LB m c) (1024 * (n / 16) + p.val) r.val 4
                    * at2 (LA m c) (1024 * (n / 4 % 4) + q.val) r.val)
          + at2 (Bi m c) 0 (1024 * (n / 4 % 4) + q.val))
  else dotUpTo (X m c) (Wt m c) (1024 * (n / 16) + p.val) (1024 * (n / 4 % 4) + q.val) (n % 4 + 1)

/-- The accumulator after point `n`, at `(p, r)`. -/
def sSpec (c : Dev nD) (n : ℕ) (p : Fin 1024) (r : Fin 128) : EReal :=
  dotUpTo (X m c) (LB m c) (1024 * (n / 16) + p.val) r.val (if n % 16 < 4 then n % 4 + 1 else 4)

/-- A state is the one the closed forms give at point `n`. -/
structure Inv (c : Dev nD) (n : ℕ) (st : Vec Ideal S1024x1024 .f32 × Vec Ideal S1024x128 .f32) : Prop where
  o : ∀ p q : Fin 1024, st.1 (ix2 p q) = oSpec m c n p q
  s : ∀ (p : Fin 1024) (r : Fin 128), st.2 (ix2 p r) = sSpec m c n p r

/-! ### The six cases -/

theorem stepA (c : Dev nD) (t : Fin cfg0.N) (h : t.val % 16 = 0) : Inv m c t.val (stA m c t h) := by
  have hN : t.val < 128 := lt_of_lt_of_eq t.isLt (show cfg0.N = 128 from N_0)
  constructor
  · intro p q
    unfold stA; dsimp only
    refine (congrFun (out5_A_eq (F := Ideal) c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t)) (ix2 p q)).trans ?_
    unfold oSpec; rw [if_neg (by omega)]
    exact (acc_step (X m c) (Wt m c) (iblk m c 0 t) (iblk m c 1 t) (k0_pay1 (F := Ideal)) (t.val / 16) (t.val / 4 % 4) (t.val % 4) (iblk0_apply m c t) (iblk1_apply m c t)
      (fun p q => by rw [show t.val % 4 = 0 from by omega]; exact (pay1_apply _).trans (dotUpTo_zero _ _ _ _).symm)) p q
  · intro p r
    unfold stA; dsimp only
    refine (congrFun (sout_A_eq (F := Ideal) c (grid0.coords t) (ms0 t) (hs0 t) (ms1 t) (hs1 t) (ms2 t) (hs2 t) (ms3 t) (hs3 t) (ms4 t) (hs4 t) (ms5 t) (hs5 t) scM (Memref.isWhole_whole _) ((hcondK t).mpr (by omega)) ((hcondJK t).mpr h) ((hcondJ t).mpr (by omega)) (fun hh => by have := (hcondL t).mp hh; omega) (iblk m c 0 t) (iblk m c 1 t) (iblk m c 2 t)) (ix2 p r)).trans ?_
    unfold sSpec; rw [if_pos (by omega)]
    exact (low_step (X m c) (LB m c) (iblk m c 0 t) (iblk m c 2 t) (k0_pay2 (F := Ideal)) (t.val / 16) (t.val % 4) (iblk0_apply m c t) (iblk2_apply m c t)
      (fun p r => by rw [show t.val % 4 = 0 from by omega]; exact (pay2_apply _).trans (dotUpTo_zero _ _ _ _).symm)) p r

theorem stepB (c : Dev nD) (t : Fin cfg0.N) (h : t.val % 16 < 4) (h0 : ¬t.val % 16 = 0) (h3 : ¬t.val % 4 = 3) (prev : Vec Ideal S1024x1024 .f32 × Vec Ideal S1024x128 .f32)
    (hp : Inv m c (t.val - 1) prev) : Inv m c t.val (stB m c t h h0 h3 prev) := by
  have hN : t.val < 128 := lt_of_lt_of_eq t.isLt (show cfg0.N = 128 from N_0)
  have e1 : (t.val - 1) / 16 = t.val / 16 := by omega
  have e2 : (t.val - 1) / 4 % 4 = t.val / 4 % 4 := by omega
  constructor
  · intro p q
    unfold stB; dsimp only
    refine (congrFun (out5_B_eq (F := Ideal) c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) prev.1 prev.2) (ix2 p q)).trans ?_
    unfold oSpec; rw [if_neg h3]
    exact (acc_step (X m c) (Wt m c) (iblk m c 0 t) (iblk m c 1 t) prev.1 (t.val / 16) (t.val / 4 % 4) (t.val % 4) (iblk0_apply m c t) (iblk1_apply m c t)
      (fun p q => by rw [hp.o p q]; unfold oSpec; rw [if_neg (by omega), e1, e2, show (t.val - 1) % 4 + 1 = t.val % 4 from by omega])) p q
  · intro p r
    unfold stB; dsimp only
    refine (congrFun (sout_B_eq (F := Ideal) c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => h0 ((hcondJK t).mp hh)) ((hcondJ t).mpr h) (fun hh => h3 ((hcondL t).mp hh)) (iblk m c 0 t) (iblk m c 1 t) (iblk m c 2 t) prev.1 prev.2) (ix2 p r)).trans ?_
    unfold sSpec; rw [if_pos h]
    exact (low_step (X m c) (LB m c) (iblk m c 0 t) (iblk m c 2 t) prev.2 (t.val / 16) (t.val % 4) (iblk0_apply m c t) (iblk2_apply m c t)
      (fun p r => by rw [hp.s p r]; unfold sSpec; rw [if_pos (by omega), e1, show (t.val - 1) % 4 + 1 = t.val % 4 from by omega])) p r

theorem stepC (c : Dev nD) (t : Fin cfg0.N) (h : t.val % 16 < 4) (h3 : t.val % 4 = 3) (prev : Vec Ideal S1024x1024 .f32 × Vec Ideal S1024x128 .f32)
    (hp : Inv m c (t.val - 1) prev) : Inv m c t.val (stC m c t h h3 prev) := by
  have hN : t.val < 128 := lt_of_lt_of_eq t.isLt (show cfg0.N = 128 from N_0)
  have e1 : (t.val - 1) / 16 = t.val / 16 := by omega
  have e2 : (t.val - 1) / 4 % 4 = t.val / 4 % 4 := by omega
  have hk : t.val % 4 + 1 = 4 := by omega
  constructor
  · intro p q
    unfold stC; dsimp only
    refine (congrFun (out5_C_eq (F := Ideal) c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) prev.1 prev.2) (ix2 p q)).trans ?_
    unfold oSpec; rw [if_pos h3]
    exact final_step (X m c) (Wt m c) (LB m c) (LA m c) (Bi m c) (iblk m c 3 t) (k0_pay5 (iblk m c 0 t) (iblk m c 2 t) prev.2)
      (k0_pay4 (iblk m c 0 t) (iblk m c 1 t) prev.1) (iblk m c 4 t) (t.val / 16) (t.val / 4 % 4) (iblk3_apply m c t) (iblk4_apply m c t)
      (fun p r => by have := (low_step (X m c) (LB m c) (iblk m c 0 t) (iblk m c 2 t) prev.2 (t.val / 16) (t.val % 4) (iblk0_apply m c t) (iblk2_apply m c t)
      (fun p r => by rw [hp.s p r]; unfold sSpec; rw [if_pos (by omega), e1, show (t.val - 1) % 4 + 1 = t.val % 4 from by omega])) p r; rw [hk] at this; exact this)
      (fun p q => by have := (acc_step (X m c) (Wt m c) (iblk m c 0 t) (iblk m c 1 t) prev.1 (t.val / 16) (t.val / 4 % 4) (t.val % 4) (iblk0_apply m c t) (iblk1_apply m c t)
      (fun p q => by rw [hp.o p q]; unfold oSpec; rw [if_neg (by omega), e1, e2, show (t.val - 1) % 4 + 1 = t.val % 4 from by omega])) p q; rw [hk] at this; exact this) p q
  · intro p r
    unfold stC; dsimp only
    refine (congrFun (sout_C_eq (F := Ideal) c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) ((hcondJ t).mpr h) ((hcondL t).mpr h3) (iblk m c 0 t) (iblk m c 1 t) (iblk m c 2 t) (iblk m c 3 t) (iblk m c 4 t) prev.1 prev.2) (ix2 p r)).trans ?_
    unfold sSpec; rw [if_pos h]
    exact (low_step (X m c) (LB m c) (iblk m c 0 t) (iblk m c 2 t) prev.2 (t.val / 16) (t.val % 4) (iblk0_apply m c t) (iblk2_apply m c t)
      (fun p r => by rw [hp.s p r]; unfold sSpec; rw [if_pos (by omega), e1, show (t.val - 1) % 4 + 1 = t.val % 4 from by omega])) p r

theorem stepD (c : Dev nD) (t : Fin cfg0.N) (h : ¬t.val % 16 < 4) (h0 : t.val % 4 = 0) (prev : Vec Ideal S1024x1024 .f32 × Vec Ideal S1024x128 .f32)
    (hp : Inv m c (t.val - 1) prev) : Inv m c t.val (stD m c t h h0 prev) := by
  have hN : t.val < 128 := lt_of_lt_of_eq t.isLt (show cfg0.N = 128 from N_0)
  have e1 : (t.val - 1) / 16 = t.val / 16 := by omega
  constructor
  · intro p q
    unfold stD; dsimp only
    refine (congrFun (out5_D_eq (F := Ideal) c (grid0.coords t) (ms0 t) (hs0 t) (ms1 t) (hs1 t) (ms2 t) (hs2 t) (ms3 t) (hs3 t) (ms4 t) (hs4 t) (ms5 t) (hs5 t) scM (Memref.isWhole_whole _) ((hcondK t).mpr h0) (fun hh => by have := (hcondJK t).mp hh; omega) (fun hh => h ((hcondJ t).mp hh)) (fun hh => by have := (hcondL t).mp hh; omega) (iblk m c 0 t) (iblk m c 1 t)) (ix2 p q)).trans ?_
    unfold oSpec; rw [if_neg (by omega)]
    exact (acc_step (X m c) (Wt m c) (iblk m c 0 t) (iblk m c 1 t) (k0_pay1 (F := Ideal)) (t.val / 16) (t.val / 4 % 4) (t.val % 4) (iblk0_apply m c t) (iblk1_apply m c t)
      (fun p q => by rw [show t.val % 4 = 0 from by omega]; exact (pay1_apply _).trans (dotUpTo_zero _ _ _ _).symm)) p q
  · intro p r
    unfold stD; dsimp only
    rw [hp.s p r]; unfold sSpec
    rw [e1, if_neg h, show (if (t.val - 1) % 16 < 4 then (t.val - 1) % 4 + 1 else 4) = 4 from by split_ifs <;> omega]

theorem stepE (c : Dev nD) (t : Fin cfg0.N) (h : ¬t.val % 16 < 4) (h0 : ¬t.val % 4 = 0) (h3 : ¬t.val % 4 = 3) (prev : Vec Ideal S1024x1024 .f32 × Vec Ideal S1024x128 .f32)
    (hp : Inv m c (t.val - 1) prev) : Inv m c t.val (stE m c t h h0 h3 prev) := by
  have hN : t.val < 128 := lt_of_lt_of_eq t.isLt (show cfg0.N = 128 from N_0)
  have e1 : (t.val - 1) / 16 = t.val / 16 := by omega
  have e2 : (t.val - 1) / 4 % 4 = t.val / 4 % 4 := by omega
  constructor
  · intro p q
    unfold stE; dsimp only
    refine (congrFun (out5_E_eq (F := Ideal) c (grid0.coords t) (ms0 t) (hs0 t) (ms1 t) (hs1 t) (ms2 t) (hs2 t) (ms3 t) (hs3 t) (ms4 t) (hs4 t) (ms5 t) (hs5 t) scM (Memref.isWhole_whole _) (fun hh => h0 ((hcondK t).mp hh)) (fun hh => by have := (hcondJK t).mp hh; omega) (fun hh => h ((hcondJ t).mp hh)) (fun hh => h3 ((hcondL t).mp hh)) (iblk m c 0 t) (iblk m c 1 t) prev.1) (ix2 p q)).trans ?_
    unfold oSpec; rw [if_neg h3]
    exact (acc_step (X m c) (Wt m c) (iblk m c 0 t) (iblk m c 1 t) prev.1 (t.val / 16) (t.val / 4 % 4) (t.val % 4) (iblk0_apply m c t) (iblk1_apply m c t)
      (fun p q => by rw [hp.o p q]; unfold oSpec; rw [if_neg (by omega), e1, e2, show (t.val - 1) % 4 + 1 = t.val % 4 from by omega])) p q
  · intro p r
    unfold stE; dsimp only
    rw [hp.s p r]; unfold sSpec
    rw [e1, if_neg h, show (if (t.val - 1) % 16 < 4 then (t.val - 1) % 4 + 1 else 4) = 4 from by split_ifs <;> omega]

theorem stepF (c : Dev nD) (t : Fin cfg0.N) (h : ¬t.val % 16 < 4) (h3 : t.val % 4 = 3) (prev : Vec Ideal S1024x1024 .f32 × Vec Ideal S1024x128 .f32)
    (hp : Inv m c (t.val - 1) prev) : Inv m c t.val (stF m c t h h3 prev) := by
  have hN : t.val < 128 := lt_of_lt_of_eq t.isLt (show cfg0.N = 128 from N_0)
  have e1 : (t.val - 1) / 16 = t.val / 16 := by omega
  have e2 : (t.val - 1) / 4 % 4 = t.val / 4 % 4 := by omega
  have hk : t.val % 4 + 1 = 4 := by omega
  constructor
  · intro p q
    unfold stF; dsimp only
    refine (congrFun (out5_F_eq (F := Ideal) c (grid0.coords t) (ms0 t) (hs0 t) (ms1 t) (hs1 t) (ms2 t) (hs2 t) (ms3 t) (hs3 t) (ms4 t) (hs4 t) (ms5 t) (hs5 t) scM (Memref.isWhole_whole _) (fun hh => by have := (hcondK t).mp hh; omega) (fun hh => by have := (hcondJK t).mp hh; omega) (fun hh => h ((hcondJ t).mp hh)) ((hcondL t).mpr h3) (iblk m c 0 t) (iblk m c 1 t) (iblk m c 3 t) (iblk m c 4 t) prev.1 prev.2) (ix2 p q)).trans ?_
    unfold oSpec; rw [if_pos h3]
    exact final_step (X m c) (Wt m c) (LB m c) (LA m c) (Bi m c) (iblk m c 3 t) prev.2
      (k0_pay4 (iblk m c 0 t) (iblk m c 1 t) prev.1) (iblk m c 4 t) (t.val / 16) (t.val / 4 % 4) (iblk3_apply m c t) (iblk4_apply m c t)
      (fun p r => by
        rw [hp.s p r]; unfold sSpec
        rw [e1, show (if (t.val - 1) % 16 < 4 then (t.val - 1) % 4 + 1 else 4) = 4 from by split_ifs <;> omega])
      (fun p q => by have := (acc_step (X m c) (Wt m c) (iblk m c 0 t) (iblk m c 1 t) prev.1 (t.val / 16) (t.val / 4 % 4) (t.val % 4) (iblk0_apply m c t) (iblk1_apply m c t)
      (fun p q => by rw [hp.o p q]; unfold oSpec; rw [if_neg (by omega), e1, e2, show (t.val - 1) % 4 + 1 = t.val % 4 from by omega])) p q; rw [hk] at this; exact this) p q
  · intro p r
    unfold stF; dsimp only
    rw [hp.s p r]; unfold sSpec
    rw [e1, if_neg h, show (if (t.val - 1) % 16 < 4 then (t.val - 1) % 4 + 1 else 4) = 4 from by split_ifs <;> omega]

/-- The state after every point is the closed forms': by induction on the point, one case of the body per step. -/
theorem inv (c : Dev nD) : ∀ (n : ℕ) (hn : n < cfg0.N), Inv m c n (outsAt m c n hn)
  | 0, hn => by
    rw [outsAt_A m c ⟨0, hn⟩ (Nat.zero_mod _)]
    exact stepA m c ⟨0, hn⟩ (Nat.zero_mod _)
  | n + 1, hn => by
    have ih : Inv m c ((⟨n + 1, hn⟩ : Fin cfg0.N).val - 1) (prevAt m c ⟨n + 1, hn⟩) := inv c n (Nat.lt_of_succ_lt hn)
    by_cases hA : (n + 1) % 16 = 0
    · rw [outsAt_A m c ⟨n + 1, hn⟩ hA]; exact stepA m c ⟨n + 1, hn⟩ hA
    · by_cases hJ : (n + 1) % 16 < 4
      · by_cases h3 : (n + 1) % 4 = 3
        · rw [outsAt_C m c ⟨n + 1, hn⟩ hJ h3]; exact stepC m c ⟨n + 1, hn⟩ hJ h3 _ ih
        · rw [outsAt_B m c ⟨n + 1, hn⟩ hJ hA h3]; exact stepB m c ⟨n + 1, hn⟩ hJ hA h3 _ ih
      · by_cases h0 : (n + 1) % 4 = 0
        · rw [outsAt_D m c ⟨n + 1, hn⟩ hJ h0]; exact stepD m c ⟨n + 1, hn⟩ hJ h0 _ ih
        · by_cases h3 : (n + 1) % 4 = 3
          · rw [outsAt_F m c ⟨n + 1, hn⟩ hJ h3]; exact stepF m c ⟨n + 1, hn⟩ hJ h3 _ ih
          · rw [outsAt_E m c ⟨n + 1, hn⟩ hJ h0 h3]; exact stepE m c ⟨n + 1, hn⟩ hJ h0 h3 _ ih

/-! ## From the blocks written back to the result array -/

/-- The result block's index map, decided over the grid: block row `n / 16`, block column `(n / 4) mod 4`. -/
theorem idx5 : ∀ t : Fin cfg0.N, win0_5.index t (0 : Fin 2) = t.val / 16 ∧ win0_5.index t (1 : Fin 2) = t.val / 4 % 4 :=
  (by decide +kernel : ∀ t : Fin grid0.N, win0_5.index t (0 : Fin 2) = t.val / 16 ∧ win0_5.index t (1 : Fin 2) = t.val / 4 % 4)

/-- The specification's function of the argument arrays, as contents of the result array. -/
abbrev result (c : Dev nD) : Buf (Elt Ideal) ((c : Thread nD τ).loc main_v7) :=
  G (m ((c : Thread nD τ).loc main_arg0)) (m ((c : Thread nD τ).loc main_arg1)) (m ((c : Thread nD τ).loc main_arg2))
    (m ((c : Thread nD τ).loc main_arg3)) (m ((c : Thread nD τ).loc main_arg4))

/-- At a point with k = 3 the result block's buffer holds, at `(p, q)`, the specification at the array index the block
    puts there: the finished blocked sums are the whole sums, and the padded rank contributes nothing past 16. -/
theorem block_is_result (c : Dev nD) (t : Fin cfg0.N) (h3 : t.val % 4 = 3) (p q : Fin 1024) (i : S8192x4096.Idx)
    (hi0 : (i 0).val = 1024 * (t.val / 16) + p.val) (hi1 : (i 1).val = 1024 * (t.val / 4 % 4) + q.val) :
    (outsAt m c t.val t.isLt).1 (ix2 p q) = result m c i := by
  have hN : t.val < 128 := lt_of_lt_of_eq t.isLt (show cfg0.N = 128 from N_0)
  rw [(inv m c t.val t.isLt).o p q]; unfold oSpec; rw [if_pos h3]
  have hT : 1024 * (t.val / 16) + p.val < 8192 := by have := p.isLt; omega
  have hO : 1024 * (t.val / 4 % 4) + q.val < 4096 := by have := q.isLt; omega
  have hi : i = ix2 (⟨1024 * (t.val / 16) + p.val, hT⟩ : Fin 8192) (⟨1024 * (t.val / 4 % 4) + q.val, hO⟩ : Fin 4096) := by
    funext a; apply Fin.ext
    match a with
    | ⟨0, _⟩ => exact hi0
    | ⟨1, _⟩ => exact hi1
  rw [hi]
  have key := final_eq_G (m ((c : Thread nD τ).loc main_arg0)) (m ((c : Thread nD τ).loc main_arg1)) (m ((c : Thread nD τ).loc main_arg2))
    (m ((c : Thread nD τ).loc main_arg3)) (m ((c : Thread nD τ).loc main_arg4)) (LA m c) (LB m c) (Bi m c)
    (V_v3_apply m c) (V_v5_apply m c) (V_v6_apply m c) ⟨1024 * (t.val / 16) + p.val, hT⟩ ⟨1024 * (t.val / 4 % 4) + q.val, hO⟩
  rw [← V_v0 m c, ← V_v1 m c] at key
  exact key

/-- What a point with k = 3 writes back is its block of the specification's function. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  obtain ⟨e0, e1⟩ := idx5 t
  show (cfg0.win 5).cut (grid0.coords t) ((dats m 0 c).after 5 t) = _
  rw [after5]
  funext y
  show (outsAt m c t.val t.isLt).1 y = result m c (((cfg0.win 5).blk t).view.emb y)
  refine (congrArg (outsAt m c t.val t.isLt).1 (eq_ix2 y)).trans ?_
  exact block_is_result m c t h3 (y 0) (y 1) _
    (by show win0_5.index t (0 : Fin 2) * 1024 + 1 * (y 0).val = _; rw [e0]; omega)
    (by show win0_5.index t (1 : Fin 2) * 1024 + 1 * (y 1).val = _; rw [e1]; omega)

/-- An index of the result array is in point `t`'s block iff each coordinate is in the block's range on its axis. -/
theorem mem_blk5 (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v7).slice (win0_5.rect t)).set ↔ _
  rw [View.set_slice_whole, Rect.mem_set_unit]
  exact Iff.rfl

/-- Every index of the result array lies in the block written back at the point with k = 3 of its row and column
    block: point 16·(row / 1024) + 4·(column / 1024) + 3. -/
theorem cover5 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hn : 16 * ((i 0).val / 1024) + 4 * ((i 1).val / 1024) + 3 < cfg0.N := by rw [show cfg0.N = 128 from N_0]; omega
  refine ⟨⟨16 * ((i 0).val / 1024) + 4 * ((i 1).val / 1024) + 3, hn⟩, (flush0_5 _).mpr (by dsimp only; omega), ?_⟩
  obtain ⟨e0, e1⟩ := idx5 ⟨16 * ((i 0).val / 1024) + 4 * ((i 1).val / 1024) + 3, hn⟩
  dsimp only at e0 e1
  rw [mem_blk5]
  intro a
  match a with
  | ⟨0, _⟩ =>
    show win0_5.index _ (0 : Fin 2) * 1024 ≤ (i 0).val ∧ (i 0).val < win0_5.index _ (0 : Fin 2) * 1024 + 1024
    rw [e0]; omega
  | ⟨1, _⟩ =>
    show win0_5.index _ (1 : Fin 2) * 1024 ≤ (i 1).val ∧ (i 1).val < win0_5.index _ (1 : Fin 2) * 1024 + 1024
    rw [e1]; omega

/-- The result array ends holding the specification's function of the argument arrays. -/
theorem final (c : Dev nD) : (dats m 0 c).arrAt 5 cfg0.N = result m c :=
  (dats m 0 c).arrAt_eq_of_cover 5 (result m c) (flushed_eq m c) cover5

/-- The run, read: the result array at the specification's function, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KValue

end
-- ==== Proof.RefIsSpec.lean ====
/-
  The reference program computes the specification.

  The reference is a chain of ten whole-array operations: three matrix products contracting the last axis of both
  operands (x against w, x against lb, and that projection against la), the scalar three broadcast over the result
  and multiplied in, two additions, and the bias broadcast first to one row and then over all rows. Read at one
  index (t, o), each product is a finite sum over the contracted axis, each broadcast reads its operand at the
  coordinates it keeps, and the pointwise operations act on the extended reals as the sum and the product. What is
  left is, term for term, the specification: the dense product, plus three times the low-rank product, plus the
  bias of column o. The scalar three is the same float word on both sides and is never evaluated.
-/
import proofs.«126250_j40355512713642_2_alg».proof.Proof.Gen.ReferenceIdeal.Read
import proofs.«126250_j40355512713642_2_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## Where each operation reads its operands

A product's result at (a, b) reads row a of its left operand and row b of its right operand, both at the
contracted position k; the bias, broadcast twice, is read at the column alone. -/

theorem lidx_v0 (t : Fin 8192) (o : Fin 4096) (k : Fin 4096) : Read.lidx_main_v0 (ix2 t o) k = ix2 t k :=
  funext fun a => Fin.ext (by match a with | ⟨0, _⟩ => rfl | ⟨1, _⟩ => rfl)

theorem ridx_v0 (t : Fin 8192) (o : Fin 4096) (k : Fin 4096) : Read.ridx_main_v0 (ix2 t o) k = ix2 o k :=
  funext fun a => Fin.ext (by match a with | ⟨0, _⟩ => rfl | ⟨1, _⟩ => rfl)

theorem lidx_v1 (t : Fin 8192) (r : Fin 16) (k : Fin 4096) : Read.lidx_main_v1 (ix2 t r) k = ix2 t k :=
  funext fun a => Fin.ext (by match a with | ⟨0, _⟩ => rfl | ⟨1, _⟩ => rfl)

theorem ridx_v1 (t : Fin 8192) (r : Fin 16) (k : Fin 4096) : Read.ridx_main_v1 (ix2 t r) k = ix2 r k :=
  funext fun a => Fin.ext (by match a with | ⟨0, _⟩ => rfl | ⟨1, _⟩ => rfl)

theorem lidx_v2 (t : Fin 8192) (o : Fin 4096) (r : Fin 16) : Read.lidx_main_v2 (ix2 t o) r = ix2 t r :=
  funext fun a => Fin.ext (by match a with | ⟨0, _⟩ => rfl | ⟨1, _⟩ => rfl)

theorem ridx_v2 (t : Fin 8192) (o : Fin 4096) (r : Fin 16) : Read.ridx_main_v2 (ix2 t o) r = ix2 o r :=
  funext fun a => Fin.ext (by match a with | ⟨0, _⟩ => rfl | ⟨1, _⟩ => rfl)

theorem idx_bias (t : Fin 8192) (o : Fin 4096) : Read.idx_main_v6 (Read.idx_main_v7 (ix2 t o)) = ix1 o :=
  funext fun a => Fin.ext (by match a with | ⟨0, _⟩ => rfl)

/-! ## The reference is the specification -/

/-- The low-rank product read at row `t`, column `o`: the sum over the sixteen directions of the projection of
    row `t` of `x` on the direction, itself a sum over the 4096 columns, times the entry of `la` at column `o`. -/
theorem low_rank_apply (x0 : (⟨S8192x4096, .f32⟩ : BufTy).Contents (Elt Ideal))
    (x3 : (⟨S4096x16, .f32⟩ : BufTy).Contents (Elt Ideal)) (x4 : (⟨S16x4096, .f32⟩ : BufTy).Contents (Elt Ideal))
    (t : Fin 8192) (o : Fin 4096) :
    Read.val_main_v2 (F := Ideal) x0 x3 x4 (ix2 t o)
      = ∑ r : Fin 16, (∑ k : Fin 4096, x0 (ix2 t k) * x4 (ix2 r k)) * x3 (ix2 o r) := by
  rw [Read.val_main_v2_apply]
  refine Finset.sum_congr rfl fun r _ => ?_
  rw [lidx_v2, ridx_v2, Read.val_main_v1_apply]
  refine congrArg (· * x3 (ix2 o r)) (Finset.sum_congr rfl fun k _ => ?_)
  rw [lidx_v1, ridx_v1]

/-- Index by index, the last stage of the reference is the specification of the five argument arrays. -/
theorem ref_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) :
    Cert.ReferenceIdeal.Read.val_main_v8 (F := Ideal) x0 x1 x2 x3 x4 = Cert.Lora.G x0 x1 x2 x3 x4 := by
  funext i
  obtain ⟨t, o, rfl⟩ : ∃ (t : Fin 8192) (o : Fin 4096), i = ix2 t o := ⟨i 0, i 1, eq_ix2 i⟩
  rw [Read.val_main_v8_apply, Read.val_main_v5_apply, Read.val_main_v0_apply, Read.val_main_v4_apply,
    Read.val_main_v3_apply, Read.val_main_cst_apply, low_rank_apply, Read.val_main_v7_apply,
    Read.val_main_v6_apply, idx_bias]
  simp only [lidx_v0, ridx_v0, Ideal.addf_def, Ideal.mulf_def, Ideal.ofBits_def]
  rfl

/-- Every weakly fair execution of the reference ends with its result array at the specification of the
    arguments as they were at launch, the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v8)
          = Cert.Lora.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run Cert.ReferenceIdeal.defs _ _).mono
    (fun _ h c => ⟨(h c).1.trans ((Read.val_main_v8_eq (F := Ideal) _ _ _ _ _).trans (ref_eq _ _ _ _ _)), (h c).2⟩)
    (Cert.ReferenceIdeal.Value.run (F := Ideal) m ρ)

end Cert.ReferenceIdeal.RefValue

end
-- ==== Proof.lean ====
/-
  A low-rank-corrected linear layer, blocked and rank-padded, against its plain form.

  Both programs compute, for activations x, weights w, a bias b and a rank-16 correction with factors la and lb,

      x·wᵀ + 3·(x·lbᵀ)·laᵀ + b      (Proof/Spec.lean).

  The reference takes the three matrix products whole. The kernel walks an 8 × 4 × 4 grid: for each 1024-row block of
  x and each 1024-column block of the result it adds up the dense product over four 1024-column blocks of the shared
  axis in the result block's buffer; on the first column block of each row block it also adds up, in a buffer of its
  own, the projection of x onto lb — padded with zero rows from rank 16 to 128 —; and with the last shared block it adds
  three times the product of that projection with the block of la — padded with zero columns — and the bias. On the
  extended reals the two agree by regrouping alone: a sum taken block by block is the sum (Proof/LibBlockSum.lean), and
  the padded directions contribute y·0 = 0 (Proof/BlockAlgebra.lean); no finiteness is used.

  The frames (Proof/Kernel*/Cases, RunA–RunF, Carried, Body): the body's four branches make six cases over the grid;
  each is run once; what the result block's buffer and the accumulator hold after each point is defined by recursion on
  the point, the accumulator carried by the region's invariant. The same text serves the kernel at the word level and
  its idealization, which differ in no operation.
  The value (Proof/KernelIdeal/Pieces, Value; Proof/Payloads, Prelude, BlockReads): each case's stores are the body's
  arithmetic of what it read; by induction on the point the buffers hold the partial blocked sums; the blocks written
  back tile the result array, and each is the specification there.
  The reference (Proof/RefIsSpec): its operations, read one at a time at an index, are the specification.
-/
import proofs.«126250_j40355512713642_2_alg».proof.Defs
import proofs.«126250_j40355512713642_2_alg».proof.Proof.Gen.Kernel
import proofs.«126250_j40355512713642_2_alg».proof.Proof.Gen.KernelIdeal
import proofs.«126250_j40355512713642_2_alg».proof.Proof.Gen.ReferenceIdeal
import proofs.«126250_j40355512713642_2_alg».proof.Proof.Gen.Pre_finite_inputs
import proofs.«126250_j40355512713642_2_alg».proof.Proof.Kernel.Body
import proofs.«126250_j40355512713642_2_alg».proof.Proof.KernelIdeal.Value
import proofs.«126250_j40355512713642_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Body.frame (F := Bits) m ρ

/-- So does its idealization. -/
theorem frame_kernelIdeal [Cert.KernelIdeal.Facts] [Cert.Pre_finite_inputs.Facts] : Cert.frame_KernelIdeal :=
  fun m ρ _ => Cert.KernelIdeal.Body.frame (F := Ideal) m ρ

/-- And the reference: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both idealized programs end with the specification's function of them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
